-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S1024x3072 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S1024x3072, .bf16⟩
  | .hbm, ⟨6, _⟩ => ⟨S1024x1024, .bf16⟩
  | .hbm, ⟨7, _⟩ => ⟨S4096x3072, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | .local _ .vmem, ⟨5, _⟩ => ⟨S512x128, .f32⟩
  | .local _ .vmem, ⟨6, _⟩ => ⟨S512x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .f32 = 32 ∨ (Rect.block (s := S4096x3072) S512x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x3072.size a
  hwx1_0 : ∀ i : grid1.Coords, EltTy.bits .f32 = 32 ∨ (Rect.block (s := S4096x3072) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .f32 = 32 ∨ (Rect.block (s := S4096x3072) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .f32 = 32 ∨ (Rect.block (s := S4096x3072) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x1024.size a
  hwx1_3 : ∀ i : grid1.Coords, EltTy.bits .f32 = 32 ∨ (Rect.block (s := S4096x1024) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S3x2x16x2048x64, .f32⟩
  | .hbm, ⟨7, _⟩ => ⟨S1x2x16x2048x64, .f32⟩
  | .hbm, ⟨8, _⟩ => ⟨S2x16x2048x64, .f32⟩
  | .hbm, ⟨9, _⟩ => ⟨S1x2x16x2048x64, .f32⟩
  | .hbm, ⟨10, _⟩ => ⟨S2x16x2048x64, .f32⟩
  | .hbm, ⟨11, _⟩ => ⟨S1x2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.K.Data.lean ====
/-
  What each of the three kernel regions is handed and what it leaves, for the frame of the program and for the value
  of its result. A region is entered with the TensorCore's buffers at contents `V`; window `w` at grid point `t`
  stages the block of its array that the window's index map names there. The three bodies each load their input
  blocks whole, compute one value from them, and store it whole into the output block:

  * region 0: the block of 512 rows of the flattened input times the whole projection matrix;
  * region 1: a block of 512 query rows, the 2048 key rows and the 2048 value rows of one batch and one group of 128
    columns (two heads), giving the 512 × 128 block of attention outputs;
  * region 2: a block of 512 rows of the attention output times the whole output matrix, plus the bias row.

  So after the body at a point every input window's staging buffer still holds its block and the output window's
  holds that one value of the input blocks. Regions 0 and 2 hold each array whole; region 1 reads ONE array through
  three windows (queries, keys, values are column ranges of the same projected array), so each of the three holds a
  third of it: the left half, and the two halves of the right half.
-/
import proofs.«155993_j2439541424406_2_alg».proof.Proof.Gen.Kernel.Launch
import proofs.«155993_j2439541424406_2_alg».proof.Proof.Gen.Kernel.Skeleton
import proofs.«155993_j2439541424406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_o : Rect S512x3072 := Rect.unit (s := S512x3072) ![0, 0] S512x3072.size inb_S512x3072_S512x3072_0_0

/-- The output block after the body: the one store, of the product of the two loaded blocks. -/
def out0_2 (x0 : Vec F S512x1024 .f32) (x1 : Vec F S1024x3072 .bf16) : Vec F S512x3072 .f32 :=
  View.canon [⟨r0_o, k0_pay1 (View.ld x0 r0_x) (View.ld x1 r0_w)⟩]

/-- The store covers the block. -/
theorem cover0_2 (p0 : Vec F S512x3072 .f32) (y : S512x3072.Idx) :
    ∃ pc ∈ ([⟨r0_o, p0⟩] : List (View.Piece (Elt F) S512x3072 .f32)), y ∈ pc.1.set :=
  View.cover_of_tiled [⟨r0_o, p0⟩] S512x3072.size (by rfl) y

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S512x128 := Rect.unit (s := S512x128) ![0, 0] S512x128.size inb_S512x128_S512x128_0_0
abbrev r1_k : Rect S2048x128 := Rect.unit (s := S2048x128) ![0, 0] S2048x128.size inb_S2048x128_S2048x128_0_0

/-- The output block after the body: the one store, of the two heads' outputs side by side, from the three loaded
    blocks (queries, keys, values). -/
def out1_3 (x0 : Vec F S512x128 .f32) (x1 x2 : Vec F S2048x128 .f32) : Vec F S512x128 .f32 :=
  View.canon [⟨r1_q, k1_pay1 (k1_pay5 (View.ld x0 r1_q) (View.ld x1 r1_k) (View.ld x2 r1_k)) (k1_pay6 (View.ld x2 r1_k))
    (k1_pay7 (View.ld x0 r1_q) (View.ld x1 r1_k)) (k1_pay8 (View.ld x0 r1_q) (View.ld x1 r1_k))⟩]

theorem cover1_3 (p0 : Vec F S512x128 .f32) (y : S512x128.Idx) :
    ∃ pc ∈ ([⟨r1_q, p0⟩] : List (View.Piece (Elt F) S512x128 .f32)), y ∈ pc.1.set :=
  View.cover_of_tiled [⟨r1_q, p0⟩] S512x128.size (by rfl) y

/-- The three readers' shares of the one projected array. -/
abbrev q1_0 : PosShare TreeShare := fullShare.left
abbrev q1_1 : PosShare TreeShare := fullShare.right.left
abbrev q1_2 : PosShare TreeShare := fullShare.right.right

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => q1_0
    | ⟨1, _⟩ => q1_1
    | ⟨2, _⟩ => q1_2
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the output projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_y : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: the one store, of the product of the two loaded blocks plus the bias row. -/
def out2_3 (x0 : Vec F S512x1024 .f32) (x1 : Vec F S1024x1024 .bf16) (x2 : Vec F S1x1024 .f32) : Vec F S512x1024 .f32 :=
  View.canon [⟨r2_y, k2_pay1 (View.ld x0 r2_y) (View.ld x1 r2_w) (View.ld x2 r2_b)⟩]

theorem cover2_3 (p0 : Vec F S512x1024 .f32) (y : S512x1024.Idx) :
    ∃ pc ∈ ([⟨r2_y, p0⟩] : List (View.Piece (Elt F) S512x1024 .f32)), y ∈ pc.1.set :=
  View.cover_of_tiled [⟨r2_y, p0⟩] S512x1024.size (by rfl) y

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Bounds.lean ====
/-
  The run of the whole program: the contents of the TensorCore's buffers at each boundary between the items of
  the main function (host operations, the three kernel regions in order, host operations between and after them),
  and each region entered from the contents the item before it left.

  A region changes only the array of its output window: the blocks its grid points write back, in order. Region 1
  reads the projected array through three windows, each holding a third of it, and writes a different array, so at
  its exit the three thirds are rejoined at the contents the region found.
-/
import proofs.«155993_j2439541424406_2_alg».proof.Proof.K.Data
import proofs.«155993_j2439541424406_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m (c, b)
/-- After the first host operations (region 0's entry). -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- At region 0's exit: its arrays at what its write-backs leave, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- At region 1's exit: the attention output's array at what the write-backs leave, every other buffer as entered. -/
def B3 (c : Dev nD) : Valuation τ sig (Elt F) :=
  Function.update (B2 m c) main_v4 ((dat1 (T2 m) c).arrAt 3 cfg1.N)
theorem B3_out (c : Dev nD) : B3 m c main_v4 = (dat1 (T2 m) c).arrAt 3 cfg1.N := by
  unfold B3; exact Function.update_self ..
theorem B3_of_ne (c : Dev nD) (b : Ref sig .tc) (hb : b ≠ main_v4) : B3 m c b = B2 m c b := by
  unfold B3
  exact Function.update_of_ne (StableHlo.devRef_ne_of_ne hb : (Proc.devRef .tc b : DevRef τ sig) ≠ Proc.devRef .tc main_v4) ..
abbrev T3 : (c : Dev nD) → (b : Ref sig .tc) → Buf (Elt F) ((c : Thread nD τ).loc b) := fun c b => B3 m c b

/-- After the host operation before region 2 (its entry). -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b
/-- At region 2's exit. -/
def B5 (c : Dev nD) : Valuation τ sig (Elt F) :=
  Pipeline.withArrays spec2 c (B4 m c) fun w => (dat2 (T4 m) c).arrAt w cfg2.N
theorem B5_arr (c : Dev nD) (w : Fin cfg2.W) :
    B5 m c (Proc.devRef .tc (Pipeline.arrRef spec2 w)) = (dat2 (T4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev T5 : (c : Dev nD) → (b : Ref sig .tc) → Buf (Elt F) ((c : Thread nD τ).loc b) := fun c b => B5 m c b
theorem hF2 (c : Dev nD) (w : Fin cfg2.W) : (dat2 (T4 m) c).arrAt w cfg2.N = T5 m c (Pipeline.arrRef spec2 w) :=
  (B5_arr m c w).symm
theorem hrest2 (c : Dev nD) : ∀ b, b ∉ Finset.univ.image (Pipeline.arrRef spec2) → T5 m c b = T4 m c b :=
  fun b hb => B5_of_ne m c b fun w e => hb (Finset.mem_image.mpr ⟨w, Finset.mem_univ _, e⟩)
/-- After the last host operation: the end. -/
abbrev B6 : Dev nD → Valuation τ sig (Elt F) := fun c => StableHlo.after hostOps3 (B5 m c)

end Cert.Kernel.Hand

end
-- ==== Proof.K.Reg1.lean ====
/-
  Region 1 reads ONE array, the projected one, through three windows and writes another. Held whole at its entry,
  the projected array is split into the three readers' thirds (the left half; the two halves of the right half); at
  the exit the thirds, still at the contents found, are rejoined, and the output's array is at what the grid points'
  write-backs left.
-/
import proofs.«155993_j2439541424406_2_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a buffer is its three readers' thirds, at the same contents. -/
theorem thirds (ℓ : Loc nD τ sig) (f : Buf (Elt F) ℓ) :
    ((ℓ ↦{fullShare} f) : sProp 𝕄) ⊣⊢ iprop((ℓ ↦{q1_0} f) ∗ (ℓ ↦{q1_1} f) ∗ ℓ ↦{q1_2} f) := by
  constructor
  · iintro H
    ihave H := (pointsTo_share (PosShare.mem_left_op_right fullShare)).1 $$ H
    icases H with ⟨H0, H12⟩
    ihave H12 := (pointsTo_share (PosShare.mem_left_op_right fullShare.right)).1 $$ H12
    icases H12 with ⟨H1, H2⟩
    isplitl [H0]; · iexact H0
    isplitl [H1] <;> iassumption
  · iintro ⟨H0, H1, H2⟩
    iapply (pointsTo_share (PosShare.mem_left_op_right fullShare)).2
    isplitl [H0]; · iexact H0
    iapply (pointsTo_share (PosShare.mem_left_op_right fullShare.right)).2
    isplitl [H1] <;> iassumption

section
variable (V : (c : Dev nD) → (b : Ref sig .tc) → Buf (Elt F) ((c : Thread nD τ).loc b))

/-- Region 1's arrays, window by window: the projected array's three thirds and the output's array whole. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v3) ↦{q1_0} G 0) ∗ (((c : Thread nD τ).loc main_v3) ↦{q1_1} G 1)
      ∗ (((c : Thread nD τ).loc main_v3) ↦{q1_2} G 2) ∗ (((c : Thread nD τ).loc main_v4) ↦{fullShare} G 3)) := by
  unfold Dat.arrays
  rw [bigSep_W1, (arr_whole1 0).set_eq_univ, (arr_whole1 3).set_eq_univ]
  rfl

/-- The buffers behind region 1's windows: the projected array and the output's. -/
theorem arrBufs1_eq (c : Dev nD) (W : (b : Ref sig .tc) → Buf (Elt F) ((c : Thread nD τ).loc b)) :
    (Pipeline.arrBufs spec1 c W : sProp 𝕄)
      = iprop((((c : Thread nD τ).loc main_v3) ↦{fullShare} W main_v3) ∗ (((c : Thread nD τ).loc main_v4) ↦{fullShare} W main_v4)) := by
  unfold Pipeline.arrBufs
  rw [show Finset.univ.image (Pipeline.arrRef spec1) = insert main_v3 {main_v4} from by decide, bigSep_insert (by decide), bigSep_singleton]
  rfl

/-- ENTRY: a core's unscoped buffers at `V` are region 1's arrays at their entry contents and the rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 (by decide) c (V c)]
  show iprop((Pipeline.arrBufs spec1 c (V c) : sProp 𝕄) ∗ Pipeline.unscopedRest spec1 c (V c)) ⊢ _
  rw [arrays1_eq, arrBufs1_eq]
  refine sep_mono ?_ .rfl
  iintro ⟨H3, H4⟩
  ihave H3 := (thirds _ _).1 $$ H3
  icases H3 with ⟨Ha, Hb, Hc⟩
  isplitl [Ha]; · iexact Ha
  isplitl [Hb]; · iexact Hb
  isplitl [Hc]; · iexact Hc
  iexact H4
end

section
variable (m : (ℓ : Loc nD τ sig) → Buf (Elt F) ℓ)

/-- EXIT: region 1's arrays at what it leaves — the three thirds of the projected array at the contents found, the
    output's array at its write-backs — and the rest as entered are the core's unscoped buffers at the exit contents. -/
theorem unscopedBufs_of_arrays1 (c : Dev nD) :
    iprop((dat1 (T2 m) c).arrays ((dat1 (T2 m) c).arrAt · cfg1.N) ∗ Pipeline.unscopedRest spec1 c (T2 m c))
      ⊢ (unscopedBufs c (T3 m c) : sProp 𝕄) := by
  rw [Pipeline.unscopedBufs_split₀ cfgs 1 (by decide) c (T3 m c)]
  show _ ⊢ iprop((Pipeline.arrBufs spec1 c (T3 m c) : sProp 𝕄) ∗ Pipeline.unscopedRest spec1 c (T3 m c))
  rw [arrays1_eq, arrBufs1_eq]
  refine sep_mono ?_ (Entails.of_eq ?_)
  · rw [((dat1 (T2 m) c).arrAt_in 0 rfl _).trans (A_eq1 (T2 m) c 0), ((dat1 (T2 m) c).arrAt_in 1 rfl _).trans (A_eq1 (T2 m) c 1),
      ((dat1 (T2 m) c).arrAt_in 2 rfl _).trans (A_eq1 (T2 m) c 2)]
    rw [show T3 m c main_v3 = T2 m c main_v3 from B3_of_ne m c main_v3 (by decide), show T3 m c main_v4 = (dat1 (T2 m) c).arrAt 3 cfg1.N from B3_out m c]
    iintro ⟨Ha, Hb, Hc, Hd⟩
    isplitl [Ha Hb Hc]
    · iapply (thirds _ _).2
      isplitl [Ha]; · iexact Ha
      isplitl [Hb]; · iexact Hb
      iexact Hc
    · iexact Hd
  · unfold Pipeline.unscopedRest
    exact bigSep_congr fun b hb => by
      rw [show T3 m c b = T2 m c b from B3_of_ne m c b fun e => (Finset.mem_sdiff.mp hb).2 (Finset.mem_image.mpr ⟨3, Finset.mem_univ _, e.symm⟩)]
end

end Cert.Kernel.Hand

end
-- ==== Proof.K.Run.lean ====
/-
  The main function as six segments — host operations, the three kernel regions, host operations between and after
  them — and its run: every weakly fair execution terminates, nothing faulting, with every unscoped buffer at the
  contents the last boundary names. The frame of the program (its arguments end as launched) and the value of its
  result are both read off that.
-/
import proofs.«155993_j2439541424406_2_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state, the `owes` apart. -/
abbrev Tₙ (c : Dev nD) : sProp 𝕄 := iprop(StableHlo.held (c : Thread nD τ) (Pipeline.ucRefs τ sig) (B6 m c) ∗ ∃ r, prngReg c r)

/-! ## The regions as segments -/

-- a library lemma stated over the pinned configuration unifies with the printed one only when unification may
-- unfold plain definitions in a metavariable's type
set_option backward.isDefEq.respectTransparency.types false in
/-- Region 0 as a segment: entered from every unscoped buffer at its entry contents, left at its exit contents; its
    arrays split out of the unscoped buffers and put back; the generator register into the region's invariant and out;
    nothing owed; no semaphore of the kernel's own. -/
def reg0 (hb : ∀ c, BodyObligation (dat0 (F := F) (T1 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read one array, so that array enters as three thirds and leaves
    rejoined; the rest is as for the other regions. -/
def reg1 (hb : ∀ c, BodyObligation (dat1 (F := F) (T2 m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit : (unscopedBufs c (T2 m c) : sProp 𝕄) ⊢ iprop((pdats m 1 c).arrays ((pdats m 1 c).arrAt · 0)
        ∗ Pipeline.unscopedRest (Ix := Unit) (Name := ℕ) (U := UR sig nD τ) (Lvl := ℕ) spec1 c (T2 m c)) := arrays1_of_unscopedBufs (F := F) (T2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (T2 m c))
        ⊢ (unscopedBufs c (T3 m c) : sProp 𝕄) := unscopedBufs_of_arrays1 (F := F) m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 as a segment: entered from every unscoped buffer at its entry contents, left at its exit contents; its
    arrays split out of the unscoped buffers and put back; the generator register into the region's invariant and out;
    nothing owed; no semaphore of the kernel's own. -/
def reg2 (hb : ∀ c, BodyObligation (dat2 (F := F) (T4 m) c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T4 m c) (T5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

section
variable (hb0 : ∀ c, BodyObligation (dat0 (F := F) (T1 m) c) (defs₀ (F := F)) Variants.none () Set.univ)
  (hb1 : ∀ c, BodyObligation (dat1 (F := F) (T2 m) c) (defs₀ (F := F)) Variants.none () Set.univ)
  (hb2 : ∀ c, BodyObligation (dat2 (F := F) (T4 m) c) (defs₀ (F := F)) Variants.none () Set.univ)

/-- The main function's six segments in order. -/
abbrev segs : List (Pipeline.Seg (pcfgs (F := F)) adm (pdats m) () defs₀ 𝒱₀ L lv) :=
  [ .host (hseg hostOps0 hostOps0_sub hostOps0_fresh (B0 m)),
    .region (reg0 m hb0),
    .region (reg1 m hb1),
    .host (hseg hostOps2 hostOps2_sub hostOps2_fresh (B3 m)),
    .region (reg2 m hb2),
    .host (hseg hostOps3 hostOps3_sub hostOps3_fresh (B5 m)) ]

include hb0 hb1 hb2 in
/-- The main function IS the run of the segments. -/
theorem main_run (c : Dev nD) : main (F := F) c = Pipeline.Seg.run (segs m hb0 hb1 hb2) := (main_chain c).trans (by chain_rfl)

include hb0 hb1 hb2 in
set_option backward.isDefEq.respectTransparency.types false in
/-- THE RUN: from any memory with zero counters every weakly fair execution of the main function terminates, nothing
    faulting, and in every final state every unscoped buffer holds what the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h => h)
end

end Cert.Kernel.Hand

end
-- ==== Proof.K.Body0.lean ====
/-
  The body obligation of region 0 (the projection), at any float instance.

  At every grid point the two input windows' current staging buffers hold their blocks: the block of 512 rows of the
  flattened input is fetched at every point; the projection matrix is fetched at the first point only and its block
  index never moves, so at a later point the buffer still holds what the first fetch put there. The body loads the
  two blocks whole, loads the output buffer (that value is unused), and stores the one product over the whole output
  block; so it leaves the inputs as found and the output at `out0_2` of the two blocks. The invariant and the core's
  debts pass through unread.
-/
import proofs.«155993_j2439541424406_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's (the matrix's) likewise: unfetched after the first point, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents `x0`, `x1` and the output's at anything,
    runs to the continuation holding the inputs' as they were and the output's at `out0_2 x0 x1`: two loads, the
    load of the output (its value unused), and the one store, which covers the block. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 (attention), the body at a grid point. Each of the three input windows' current staging buffers holds its
  block at every point, fetched there or not: the query window is fetched at every point; the key and value windows
  are fetched at the points ≡ 0 (mod 4) only, and at the other points their block index has not moved, so the buffer
  still holds the previous point's block, which is this point's. The body loads the three blocks whole, loads its
  output block once (the value read is unused), and stores one value of the three loaded blocks over the whole output
  block; so it leaves the inputs as they were and the output at `out1_3` of the three blocks, whatever the output
  buffer held before.
-/
import proofs.«155993_j2439541424406_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The body on whole staging memrefs, the three inputs' at read contents `x0 x1 x2` and the output's at anything, runs
    to the continuation holding the inputs' as they were and the output's at `out1_3 x0 x1 x2`: its one store covers the
    block. -/
theorem sound_kernel1 (c : Dev nD) (E : Set ℕ) (i : grid1.Coords)
    (arg3 : Memref sig .tc .vmem S512x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S512x128 .f32) (harg6 : arg6.IsWhole)
    (x0 : Vec F S512x128 .f32) (x1 x2 : Vec F S2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The body obligation of region 2 (the output projection), at any float instance.

  At every grid point the three input windows' current staging buffers hold their blocks: the block of 512 rows of
  the attention output is fetched at every point; the output matrix and the bias row are fetched at the first point
  only and their block indices never move, so at a later point their buffers still hold what the first fetch put
  there. The body loads the three blocks whole, loads the output buffer (that value is unused), and stores the one
  value (the product plus the bias row) over the whole output block; so it leaves the inputs as found and the output
  at `out2_3` of the three blocks. The invariant and the core's debts pass through unread.
-/
import proofs.«155993_j2439541424406_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the matrix's) likewise: unfetched after the first point, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's (the bias row's) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 1000000 in
/-- The kernel body on whole staging memrefs, the inputs' at read contents `x0`, `x1`, `x2` and the output's at
    anything, runs to the continuation holding the inputs' as they were and the output's at `out2_3 x0 x1 x2`: three
    loads, the load of the output (its value unused), and the one store, which covers the block. -/
theorem sound_kernel2 (c : Dev nD) (E : Set ℕ) (i : grid2.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Frame.lean ====
/-
  The frame of the program: its run, with the three regions' body obligations supplied, and each argument array read
  back through the boundaries to its launch contents — no host operation writes an argument and no region has one
  among its windows' arrays.
-/
import proofs.«155993_j2439541424406_2_alg».proof.Proof.K.Run
import proofs.«155993_j2439541424406_2_alg».proof.Proof.K.Body0
import proofs.«155993_j2439541424406_2_alg».proof.Proof.K.Body1
import proofs.«155993_j2439541424406_2_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, the bodies supplied. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  run_all m ρ (fun c => body_obligation0 (T1 m) c) (fun c => body_obligation1 (T2 m) c) (fun c => body_obligation2 (T4 m) c)

/-- A buffer that no host operation writes and that is no region's output or input array ends as launched. -/
theorem B6_kept (c : Dev nD) (b : Ref sig .tc) (h0 : b ∉ hostOps0_W) (h2 : b ∉ hostOps2_W) (h3 : b ∉ hostOps3_W)
    (ha0 : ∀ w, Pipeline.arrRef spec0 w ≠ b) (h4 : b ≠ main_v4) (ha2 : ∀ w, Pipeline.arrRef spec2 w ≠ b) :
    B6 m c b = m ((c : Thread nD τ).loc b) :=
  calc B6 m c b
    _ = B5 m c b := StableHlo.after_of_writes_sub hostOps3 _ hostOps3_writes h3
    _ = B4 m c b := B5_of_ne m c b ha2
    _ = B3 m c b := StableHlo.after_of_writes_sub hostOps2 _ hostOps2_writes h2
    _ = B2 m c b := B3_of_ne m c b h4
    _ = B1 m c b := B2_of_ne m c b ha0
    _ = B0 m c b := StableHlo.after_of_writes_sub hostOps0 _ hostOps0_writes h0
    _ = m ((c : Thread nD τ).loc b) := rfl

/-- THE FRAME: every weakly fair execution of the main function terminates, nothing faulting, and the four argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B6_kept m c main_arg0 (by decide) (by decide) (by decide) (by decide) (by decide) (by decide)),
     (h c _ (mem_uc main_arg1 (by decide))).trans (B6_kept m c main_arg1 (by decide) (by decide) (by decide) (by decide) (by decide) (by decide)),
     (h c _ (mem_uc main_arg2 (by decide))).trans (B6_kept m c main_arg2 (by decide) (by decide) (by decide) (by decide) (by decide) (by decide)),
     (h c _ (mem_uc main_arg3 (by decide))).trans (B6_kept m c main_arg3 (by decide) (by decide) (by decide) (by decide) (by decide) (by decide))⟩)
    (run_final m ρ)

end Cert.Kernel.Hand

end
-- ==== Proof.KI.Data.lean ====
/-
  What each of the three kernel regions is handed and what it leaves, for the frame of the program and for the value
  of its result. A region is entered with the TensorCore's buffers at contents `V`; window `w` at grid point `t`
  stages the block of its array that the window's index map names there. The three bodies each load their input
  blocks whole, compute one value from them, and store it whole into the output block:

  * region 0: the block of 512 rows of the flattened input times the whole projection matrix;
  * region 1: a block of 512 query rows, the 2048 key rows and the 2048 value rows of one batch and one group of 128
    columns (two heads), giving the 512 × 128 block of attention outputs;
  * region 2: a block of 512 rows of the attention output times the whole output matrix, plus the bias row.

  So after the body at a point every input window's staging buffer still holds its block and the output window's
  holds that one value of the input blocks. Regions 0 and 2 hold each array whole; region 1 reads ONE array through
  three windows (queries, keys, values are column ranges of the same projected array), so each of the three holds a
  third of it: the left half, and the two halves of the right half.
-/
import proofs.«155993_j2439541424406_2_alg».proof.Proof.Gen.KernelIdeal.Launch
import proofs.«155993_j2439541424406_2_alg».proof.Proof.Gen.KernelIdeal.Skeleton
import proofs.«155993_j2439541424406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_o : Rect S512x3072 := Rect.unit (s := S512x3072) ![0, 0] S512x3072.size inb_S512x3072_S512x3072_0_0

/-- The output block after the body: the one store, of the product of the two loaded blocks. -/
def out0_2 (x0 : Vec F S512x1024 .f32) (x1 : Vec F S1024x3072 .bf16) : Vec F S512x3072 .f32 :=
  View.canon [⟨r0_o, k0_pay1 (View.ld x0 r0_x) (View.ld x1 r0_w)⟩]

/-- The store covers the block. -/
theorem cover0_2 (p0 : Vec F S512x3072 .f32) (y : S512x3072.Idx) :
    ∃ pc ∈ ([⟨r0_o, p0⟩] : List (View.Piece (Elt F) S512x3072 .f32)), y ∈ pc.1.set :=
  View.cover_of_tiled [⟨r0_o, p0⟩] S512x3072.size (by rfl) y

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S512x128 := Rect.unit (s := S512x128) ![0, 0] S512x128.size inb_S512x128_S512x128_0_0
abbrev r1_k : Rect S2048x128 := Rect.unit (s := S2048x128) ![0, 0] S2048x128.size inb_S2048x128_S2048x128_0_0

/-- The output block after the body: the one store, of the two heads' outputs side by side, from the three loaded
    blocks (queries, keys, values). -/
def out1_3 (x0 : Vec F S512x128 .f32) (x1 x2 : Vec F S2048x128 .f32) : Vec F S512x128 .f32 :=
  View.canon [⟨r1_q, k1_pay1 (k1_pay5 (View.ld x0 r1_q) (View.ld x1 r1_k) (View.ld x2 r1_k)) (k1_pay6 (View.ld x2 r1_k))
    (k1_pay7 (View.ld x0 r1_q) (View.ld x1 r1_k)) (k1_pay8 (View.ld x0 r1_q) (View.ld x1 r1_k))⟩]

theorem cover1_3 (p0 : Vec F S512x128 .f32) (y : S512x128.Idx) :
    ∃ pc ∈ ([⟨r1_q, p0⟩] : List (View.Piece (Elt F) S512x128 .f32)), y ∈ pc.1.set :=
  View.cover_of_tiled [⟨r1_q, p0⟩] S512x128.size (by rfl) y

/-- The three readers' shares of the one projected array. -/
abbrev q1_0 : PosShare TreeShare := fullShare.left
abbrev q1_1 : PosShare TreeShare := fullShare.right.left
abbrev q1_2 : PosShare TreeShare := fullShare.right.right

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => q1_0
    | ⟨1, _⟩ => q1_1
    | ⟨2, _⟩ => q1_2
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the output projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_y : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: the one store, of the product of the two loaded blocks plus the bias row. -/
def out2_3 (x0 : Vec F S512x1024 .f32) (x1 : Vec F S1024x1024 .bf16) (x2 : Vec F S1x1024 .f32) : Vec F S512x1024 .f32 :=
  View.canon [⟨r2_y, k2_pay1 (View.ld x0 r2_y) (View.ld x1 r2_w) (View.ld x2 r2_b)⟩]

theorem cover2_3 (p0 : Vec F S512x1024 .f32) (y : S512x1024.Idx) :
    ∃ pc ∈ ([⟨r2_y, p0⟩] : List (View.Piece (Elt F) S512x1024 .f32)), y ∈ pc.1.set :=
  View.cover_of_tiled [⟨r2_y, p0⟩] S512x1024.size (by rfl) y

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Bounds.lean ====
/-
  The run of the whole program: the contents of the TensorCore's buffers at each boundary between the items of
  the main function (host operations, the three kernel regions in order, host operations between and after them),
  and each region entered from the contents the item before it left.

  A region changes only the array of its output window: the blocks its grid points write back, in order. Region 1
  reads the projected array through three windows, each holding a third of it, and writes a different array, so at
  its exit the three thirds are rejoined at the contents the region found.
-/
import proofs.«155993_j2439541424406_2_alg».proof.Proof.KI.Data
import proofs.«155993_j2439541424406_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m (c, b)
/-- After the first host operations (region 0's entry). -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- At region 0's exit: its arrays at what its write-backs leave, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- At region 1's exit: the attention output's array at what the write-backs leave, every other buffer as entered. -/
def B3 (c : Dev nD) : Valuation τ sig (Elt F) :=
  Function.update (B2 m c) main_v4 ((dat1 (T2 m) c).arrAt 3 cfg1.N)
theorem B3_out (c : Dev nD) : B3 m c main_v4 = (dat1 (T2 m) c).arrAt 3 cfg1.N := by
  unfold B3; exact Function.update_self ..
theorem B3_of_ne (c : Dev nD) (b : Ref sig .tc) (hb : b ≠ main_v4) : B3 m c b = B2 m c b := by
  unfold B3
  exact Function.update_of_ne (StableHlo.devRef_ne_of_ne hb : (Proc.devRef .tc b : DevRef τ sig) ≠ Proc.devRef .tc main_v4) ..
abbrev T3 : (c : Dev nD) → (b : Ref sig .tc) → Buf (Elt F) ((c : Thread nD τ).loc b) := fun c b => B3 m c b

/-- After the host operation before region 2 (its entry). -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b
/-- At region 2's exit. -/
def B5 (c : Dev nD) : Valuation τ sig (Elt F) :=
  Pipeline.withArrays spec2 c (B4 m c) fun w => (dat2 (T4 m) c).arrAt w cfg2.N
theorem B5_arr (c : Dev nD) (w : Fin cfg2.W) :
    B5 m c (Proc.devRef .tc (Pipeline.arrRef spec2 w)) = (dat2 (T4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev T5 : (c : Dev nD) → (b : Ref sig .tc) → Buf (Elt F) ((c : Thread nD τ).loc b) := fun c b => B5 m c b
theorem hF2 (c : Dev nD) (w : Fin cfg2.W) : (dat2 (T4 m) c).arrAt w cfg2.N = T5 m c (Pipeline.arrRef spec2 w) :=
  (B5_arr m c w).symm
theorem hrest2 (c : Dev nD) : ∀ b, b ∉ Finset.univ.image (Pipeline.arrRef spec2) → T5 m c b = T4 m c b :=
  fun b hb => B5_of_ne m c b fun w e => hb (Finset.mem_image.mpr ⟨w, Finset.mem_univ _, e⟩)
/-- After the last host operation: the end. -/
abbrev B6 : Dev nD → Valuation τ sig (Elt F) := fun c => StableHlo.after hostOps3 (B5 m c)

end Cert.KernelIdeal.Hand

end
-- ==== Proof.KI.Reg1.lean ====
/-
  Region 1 reads ONE array, the projected one, through three windows and writes another. Held whole at its entry,
  the projected array is split into the three readers' thirds (the left half; the two halves of the right half); at
  the exit the thirds, still at the contents found, are rejoined, and the output's array is at what the grid points'
  write-backs left.
-/
import proofs.«155993_j2439541424406_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a buffer is its three readers' thirds, at the same contents. -/
theorem thirds (ℓ : Loc nD τ sig) (f : Buf (Elt F) ℓ) :
    ((ℓ ↦{fullShare} f) : sProp 𝕄) ⊣⊢ iprop((ℓ ↦{q1_0} f) ∗ (ℓ ↦{q1_1} f) ∗ ℓ ↦{q1_2} f) := by
  constructor
  · iintro H
    ihave H := (pointsTo_share (PosShare.mem_left_op_right fullShare)).1 $$ H
    icases H with ⟨H0, H12⟩
    ihave H12 := (pointsTo_share (PosShare.mem_left_op_right fullShare.right)).1 $$ H12
    icases H12 with ⟨H1, H2⟩
    isplitl [H0]; · iexact H0
    isplitl [H1] <;> iassumption
  · iintro ⟨H0, H1, H2⟩
    iapply (pointsTo_share (PosShare.mem_left_op_right fullShare)).2
    isplitl [H0]; · iexact H0
    iapply (pointsTo_share (PosShare.mem_left_op_right fullShare.right)).2
    isplitl [H1] <;> iassumption

section
variable (V : (c : Dev nD) → (b : Ref sig .tc) → Buf (Elt F) ((c : Thread nD τ).loc b))

/-- Region 1's arrays, window by window: the projected array's three thirds and the output's array whole. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v3) ↦{q1_0} G 0) ∗ (((c : Thread nD τ).loc main_v3) ↦{q1_1} G 1)
      ∗ (((c : Thread nD τ).loc main_v3) ↦{q1_2} G 2) ∗ (((c : Thread nD τ).loc main_v4) ↦{fullShare} G 3)) := by
  unfold Dat.arrays
  rw [bigSep_W1, (arr_whole1 0).set_eq_univ, (arr_whole1 3).set_eq_univ]
  rfl

/-- The buffers behind region 1's windows: the projected array and the output's. -/
theorem arrBufs1_eq (c : Dev nD) (W : (b : Ref sig .tc) → Buf (Elt F) ((c : Thread nD τ).loc b)) :
    (Pipeline.arrBufs spec1 c W : sProp 𝕄)
      = iprop((((c : Thread nD τ).loc main_v3) ↦{fullShare} W main_v3) ∗ (((c : Thread nD τ).loc main_v4) ↦{fullShare} W main_v4)) := by
  unfold Pipeline.arrBufs
  rw [show Finset.univ.image (Pipeline.arrRef spec1) = insert main_v3 {main_v4} from by decide, bigSep_insert (by decide), bigSep_singleton]
  rfl

/-- ENTRY: a core's unscoped buffers at `V` are region 1's arrays at their entry contents and the rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 (by decide) c (V c)]
  show iprop((Pipeline.arrBufs spec1 c (V c) : sProp 𝕄) ∗ Pipeline.unscopedRest spec1 c (V c)) ⊢ _
  rw [arrays1_eq, arrBufs1_eq]
  refine sep_mono ?_ .rfl
  iintro ⟨H3, H4⟩
  ihave H3 := (thirds _ _).1 $$ H3
  icases H3 with ⟨Ha, Hb, Hc⟩
  isplitl [Ha]; · iexact Ha
  isplitl [Hb]; · iexact Hb
  isplitl [Hc]; · iexact Hc
  iexact H4
end

section
variable (m : (ℓ : Loc nD τ sig) → Buf (Elt F) ℓ)

/-- EXIT: region 1's arrays at what it leaves — the three thirds of the projected array at the contents found, the
    output's array at its write-backs — and the rest as entered are the core's unscoped buffers at the exit contents. -/
theorem unscopedBufs_of_arrays1 (c : Dev nD) :
    iprop((dat1 (T2 m) c).arrays ((dat1 (T2 m) c).arrAt · cfg1.N) ∗ Pipeline.unscopedRest spec1 c (T2 m c))
      ⊢ (unscopedBufs c (T3 m c) : sProp 𝕄) := by
  rw [Pipeline.unscopedBufs_split₀ cfgs 1 (by decide) c (T3 m c)]
  show _ ⊢ iprop((Pipeline.arrBufs spec1 c (T3 m c) : sProp 𝕄) ∗ Pipeline.unscopedRest spec1 c (T3 m c))
  rw [arrays1_eq, arrBufs1_eq]
  refine sep_mono ?_ (Entails.of_eq ?_)
  · rw [((dat1 (T2 m) c).arrAt_in 0 rfl _).trans (A_eq1 (T2 m) c 0), ((dat1 (T2 m) c).arrAt_in 1 rfl _).trans (A_eq1 (T2 m) c 1),
      ((dat1 (T2 m) c).arrAt_in 2 rfl _).trans (A_eq1 (T2 m) c 2)]
    rw [show T3 m c main_v3 = T2 m c main_v3 from B3_of_ne m c main_v3 (by decide), show T3 m c main_v4 = (dat1 (T2 m) c).arrAt 3 cfg1.N from B3_out m c]
    iintro ⟨Ha, Hb, Hc, Hd⟩
    isplitl [Ha Hb Hc]
    · iapply (thirds _ _).2
      isplitl [Ha]; · iexact Ha
      isplitl [Hb]; · iexact Hb
      iexact Hc
    · iexact Hd
  · unfold Pipeline.unscopedRest
    exact bigSep_congr fun b hb => by
      rw [show T3 m c b = T2 m c b from B3_of_ne m c b fun e => (Finset.mem_sdiff.mp hb).2 (Finset.mem_image.mpr ⟨3, Finset.mem_univ _, e.symm⟩)]
end

end Cert.KernelIdeal.Hand

end
-- ==== Proof.KI.Run.lean ====
/-
  The main function as six segments — host operations, the three kernel regions, host operations between and after
  them — and its run: every weakly fair execution terminates, nothing faulting, with every unscoped buffer at the
  contents the last boundary names. The frame of the program (its arguments end as launched) and the value of its
  result are both read off that.
-/
import proofs.«155993_j2439541424406_2_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state, the `owes` apart. -/
abbrev Tₙ (c : Dev nD) : sProp 𝕄 := iprop(StableHlo.held (c : Thread nD τ) (Pipeline.ucRefs τ sig) (B6 m c) ∗ ∃ r, prngReg c r)

/-! ## The regions as segments -/

-- a library lemma stated over the pinned configuration unifies with the printed one only when unification may
-- unfold plain definitions in a metavariable's type
set_option backward.isDefEq.respectTransparency.types false in
/-- Region 0 as a segment: entered from every unscoped buffer at its entry contents, left at its exit contents; its
    arrays split out of the unscoped buffers and put back; the generator register into the region's invariant and out;
    nothing owed; no semaphore of the kernel's own. -/
def reg0 (hb : ∀ c, BodyObligation (dat0 (F := F) (T1 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read one array, so that array enters as three thirds and leaves
    rejoined; the rest is as for the other regions. -/
def reg1 (hb : ∀ c, BodyObligation (dat1 (F := F) (T2 m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit : (unscopedBufs c (T2 m c) : sProp 𝕄) ⊢ iprop((pdats m 1 c).arrays ((pdats m 1 c).arrAt · 0)
        ∗ Pipeline.unscopedRest (Ix := Unit) (Name := ℕ) (U := UR sig nD τ) (Lvl := ℕ) spec1 c (T2 m c)) := arrays1_of_unscopedBufs (F := F) (T2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (T2 m c))
        ⊢ (unscopedBufs c (T3 m c) : sProp 𝕄) := unscopedBufs_of_arrays1 (F := F) m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 as a segment: entered from every unscoped buffer at its entry contents, left at its exit contents; its
    arrays split out of the unscoped buffers and put back; the generator register into the region's invariant and out;
    nothing owed; no semaphore of the kernel's own. -/
def reg2 (hb : ∀ c, BodyObligation (dat2 (F := F) (T4 m) c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T4 m c) (T5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

section
variable (hb0 : ∀ c, BodyObligation (dat0 (F := F) (T1 m) c) (defs₀ (F := F)) Variants.none () Set.univ)
  (hb1 : ∀ c, BodyObligation (dat1 (F := F) (T2 m) c) (defs₀ (F := F)) Variants.none () Set.univ)
  (hb2 : ∀ c, BodyObligation (dat2 (F := F) (T4 m) c) (defs₀ (F := F)) Variants.none () Set.univ)

/-- The main function's six segments in order. -/
abbrev segs : List (Pipeline.Seg (pcfgs (F := F)) adm (pdats m) () defs₀ 𝒱₀ L lv) :=
  [ .host (hseg hostOps0 hostOps0_sub hostOps0_fresh (B0 m)),
    .region (reg0 m hb0),
    .region (reg1 m hb1),
    .host (hseg hostOps2 hostOps2_sub hostOps2_fresh (B3 m)),
    .region (reg2 m hb2),
    .host (hseg hostOps3 hostOps3_sub hostOps3_fresh (B5 m)) ]

include hb0 hb1 hb2 in
/-- The main function IS the run of the segments. -/
theorem main_run (c : Dev nD) : main (F := F) c = Pipeline.Seg.run (segs m hb0 hb1 hb2) := (main_chain c).trans (by chain_rfl)

include hb0 hb1 hb2 in
set_option backward.isDefEq.respectTransparency.types false in
/-- THE RUN: from any memory with zero counters every weakly fair execution of the main function terminates, nothing
    faulting, and in every final state every unscoped buffer holds what the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h => h)
end

end Cert.KernelIdeal.Hand

end
-- ==== Proof.KI.Body0.lean ====
/-
  The body obligation of region 0 (the projection), at any float instance.

  At every grid point the two input windows' current staging buffers hold their blocks: the block of 512 rows of the
  flattened input is fetched at every point; the projection matrix is fetched at the first point only and its block
  index never moves, so at a later point the buffer still holds what the first fetch put there. The body loads the
  two blocks whole, loads the output buffer (that value is unused), and stores the one product over the whole output
  block; so it leaves the inputs as found and the output at `out0_2` of the two blocks. The invariant and the core's
  debts pass through unread.
-/
import proofs.«155993_j2439541424406_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's (the matrix's) likewise: unfetched after the first point, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents `x0`, `x1` and the output's at anything,
    runs to the continuation holding the inputs' as they were and the output's at `out0_2 x0 x1`: two loads, the
    load of the output (its value unused), and the one store, which covers the block. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 (attention), the body at a grid point. Each of the three input windows' current staging buffers holds its
  block at every point, fetched there or not: the query window is fetched at every point; the key and value windows
  are fetched at the points ≡ 0 (mod 4) only, and at the other points their block index has not moved, so the buffer
  still holds the previous point's block, which is this point's. The body loads the three blocks whole, loads its
  output block once (the value read is unused), and stores one value of the three loaded blocks over the whole output
  block; so it leaves the inputs as they were and the output at `out1_3` of the three blocks, whatever the output
  buffer held before.
-/
import proofs.«155993_j2439541424406_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The body on whole staging memrefs, the three inputs' at read contents `x0 x1 x2` and the output's at anything, runs
    to the continuation holding the inputs' as they were and the output's at `out1_3 x0 x1 x2`: its one store covers the
    block. -/
theorem sound_kernel1 (c : Dev nD) (E : Set ℕ) (i : grid1.Coords)
    (arg3 : Memref sig .tc .vmem S512x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S512x128 .f32) (harg6 : arg6.IsWhole)
    (x0 : Vec F S512x128 .f32) (x1 x2 : Vec F S2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The body obligation of region 2 (the output projection), at any float instance.

  At every grid point the three input windows' current staging buffers hold their blocks: the block of 512 rows of
  the attention output is fetched at every point; the output matrix and the bias row are fetched at the first point
  only and their block indices never move, so at a later point their buffers still hold what the first fetch put
  there. The body loads the three blocks whole, loads the output buffer (that value is unused), and stores the one
  value (the product plus the bias row) over the whole output block; so it leaves the inputs as found and the output
  at `out2_3` of the three blocks. The invariant and the core's debts pass through unread.
-/
import proofs.«155993_j2439541424406_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the matrix's) likewise: unfetched after the first point, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's (the bias row's) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 1000000 in
/-- The kernel body on whole staging memrefs, the inputs' at read contents `x0`, `x1`, `x2` and the output's at
    anything, runs to the continuation holding the inputs' as they were and the output's at `out2_3 x0 x1 x2`: three
    loads, the load of the output (its value unused), and the one store, which covers the block. -/
theorem sound_kernel2 (c : Dev nD) (E : Set ℕ) (i : grid2.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Frame.lean ====
/-
  The frame of the program: its run, with the three regions' body obligations supplied, and each argument array read
  back through the boundaries to its launch contents — no host operation writes an argument and no region has one
  among its windows' arrays.
-/
import proofs.«155993_j2439541424406_2_alg».proof.Proof.KI.Run
import proofs.«155993_j2439541424406_2_alg».proof.Proof.KI.Body0
import proofs.«155993_j2439541424406_2_alg».proof.Proof.KI.Body1
import proofs.«155993_j2439541424406_2_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, the bodies supplied. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  run_all m ρ (fun c => body_obligation0 (T1 m) c) (fun c => body_obligation1 (T2 m) c) (fun c => body_obligation2 (T4 m) c)

/-- A buffer that no host operation writes and that is no region's output or input array ends as launched. -/
theorem B6_kept (c : Dev nD) (b : Ref sig .tc) (h0 : b ∉ hostOps0_W) (h2 : b ∉ hostOps2_W) (h3 : b ∉ hostOps3_W)
    (ha0 : ∀ w, Pipeline.arrRef spec0 w ≠ b) (h4 : b ≠ main_v4) (ha2 : ∀ w, Pipeline.arrRef spec2 w ≠ b) :
    B6 m c b = m ((c : Thread nD τ).loc b) :=
  calc B6 m c b
    _ = B5 m c b := StableHlo.after_of_writes_sub hostOps3 _ hostOps3_writes h3
    _ = B4 m c b := B5_of_ne m c b ha2
    _ = B3 m c b := StableHlo.after_of_writes_sub hostOps2 _ hostOps2_writes h2
    _ = B2 m c b := B3_of_ne m c b h4
    _ = B1 m c b := B2_of_ne m c b ha0
    _ = B0 m c b := StableHlo.after_of_writes_sub hostOps0 _ hostOps0_writes h0
    _ = m ((c : Thread nD τ).loc b) := rfl

/-- THE FRAME: every weakly fair execution of the main function terminates, nothing faulting, and the four argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B6_kept m c main_arg0 (by decide) (by decide) (by decide) (by decide) (by decide) (by decide)),
     (h c _ (mem_uc main_arg1 (by decide))).trans (B6_kept m c main_arg1 (by decide) (by decide) (by decide) (by decide) (by decide) (by decide)),
     (h c _ (mem_uc main_arg2 (by decide))).trans (B6_kept m c main_arg2 (by decide) (by decide) (by decide) (by decide) (by decide) (by decide)),
     (h c _ (mem_uc main_arg3 (by decide))).trans (B6_kept m c main_arg3 (by decide) (by decide) (by decide) (by decide) (by decide) (by decide))⟩)
    (run_final m ρ)

end Cert.KernelIdeal.Hand

end
-- ==== Proof.Spec.lean ====
/-
  The mathematics both programs compute, as functions on the extended reals, index by index.

  Multi-head self-attention over a batch of 2 sequences of 2048 tokens of width 1024, 16 heads of width 64:
  * the projection  qkv r e = ∑ k, x r k · w k e   (rows r = 2048·b + s, columns e: queries 0…1023, keys 1024…2047,
    values 2048…3071, head h at columns 64·h … 64·h + 63 of each third);
  * per head and query row, the scores against every key row scaled by 1/8, their maximum, the exponentials of the
    scores less the maximum, and the exponentials' weighted sum of the value rows divided by the exponentials' sum;
  * the output projection plus the bias.
-/
import Idealize.ShloMosaic.PureOps.Ideal

noncomputable section

namespace Cert.Spec

open Idealize.ShloMosaic

/-- The scale of a score, 1/8 = 1/√64, as the binary word both programs can spell. -/
abbrev eighth : EReal := Ideal.ofBits .f32 0x3E000000#32
/-- The value a row maximum starts from: minus infinity. -/
abbrev negInf : EReal := Ideal.ofBits .f32 0xFF800000#32

section Head
variable {R K : Type} [Fintype K]

/-- The scaled score of query row `r` against key row `k`: their inner product over the head's 64 columns, times 1/8. -/
def score (qf : R → Fin 64 → EReal) (kf : K → Fin 64 → EReal) (r : R) (k : K) : EReal :=
  (∑ d : Fin 64, qf r d * kf k d) * eighth

/-- A row's maximum, folded from minus infinity. -/
def rowMax (s : K → EReal) : EReal := (Finset.univ : Finset K).fold max negInf s

/-- The exponential of a score less its row's maximum. -/
def expRow (qf : R → Fin 64 → EReal) (kf : K → Fin 64 → EReal) (r : R) (k : K) : EReal :=
  Ideal.exp (score qf kf r k - rowMax (score qf kf r))

/-- One head's output at query row `r`, column `d`: the exponentials' weighted sum of the value rows, divided by the
    exponentials' sum. -/
def headOut (qf : R → Fin 64 → EReal) (kf vf : K → Fin 64 → EReal) (r : R) (d : Fin 64) : EReal :=
  Ideal.div (∑ k : K, expRow qf kf r k * vf k d) (∑ k : K, expRow qf kf r k)

end Head

/-- The projection: row `r` of `x` against column `e` of `w`. -/
def proj {M N : Type} (x : M → Fin 1024 → EReal) (w : Fin 1024 → N → EReal) (r : M) (e : N) : EReal :=
  ∑ k : Fin 1024, x r k * w k e

/-- Row `2048·b + s` of a 4096-row array. -/
def row (b : Fin 2) (s : Fin 2048) : Fin 4096 := ⟨2048 * b.val + s.val, by omega⟩
/-- Column `1024·j + 64·h + d` of the projected array: third `j` (queries, keys, values), head `h`, column `d`. -/
def col (j : Fin 3) (h : Fin 16) (d : Fin 64) : Fin 3072 := ⟨1024 * j.val + 64 * h.val + d.val, by omega⟩
/-- Column `64·h + d` of a 1024-column array. -/
def hcol (h : Fin 16) (d : Fin 64) : Fin 1024 := ⟨64 * h.val + d.val, by omega⟩

/-- The attention output from the projected array `Q`: batch `b`, head `h`, query row `s`, column `d`. -/
def attn (Q : Fin 4096 → Fin 3072 → EReal) (b : Fin 2) (h : Fin 16) (s : Fin 2048) (d : Fin 64) : EReal :=
  headOut (fun (q : Fin 2048) d' => Q (row b q) (col 0 h d')) (fun (k : Fin 2048) d' => Q (row b k) (col 1 h d'))
    (fun (k : Fin 2048) d' => Q (row b k) (col 2 h d')) s d

/-- The whole function: batch `b`, token `s`, output column `e`. `x` is read by row `2048·b + s`. -/
def result (x : Fin 4096 → Fin 1024 → EReal) (wqkv : Fin 1024 → Fin 3072 → EReal) (wout : Fin 1024 → Fin 1024 → EReal)
    (bias : Fin 1024 → EReal) (b : Fin 2) (s : Fin 2048) (e : Fin 1024) : EReal :=
  (∑ k : Fin 1024, attn (proj x wqkv) b ⟨k.val / 64, by omega⟩ s ⟨k.val % 64, by omega⟩ * wout k e) + bias e

end Cert.Spec

end
-- ==== Proof.Spec2.lean ====
/-
  The output projection with its bias, as one function: row `r` of `x` against column `e` of `w`, plus entry `e` of
  the bias.
-/
import proofs.«155993_j2439541424406_2_alg».proof.Proof.Spec

noncomputable section

namespace Cert.Spec

/-- The projection plus the bias. -/
def projBias {M N : Type} (x : M → Fin 1024 → EReal) (w : Fin 1024 → N → EReal) (b : N → EReal) (r : M) (e : N) : EReal :=
  proj x w r e + b e

/-- A column of the 1024-wide array is the head `k / 64`, column `k % 64` of that head. -/
theorem hcol_div_mod (k : Fin 1024) : hcol ⟨k.val / 64, by omega⟩ ⟨k.val % 64, by omega⟩ = k :=
  Fin.ext (by show 64 * (k.val / 64) + k.val % 64 = k.val; omega)

/-- The whole function through the projection with bias: the attention output as a 4096 × 1024 array, projected. -/
theorem result_eq_projBias (x : Fin 4096 → Fin 1024 → EReal) (wqkv : Fin 1024 → Fin 3072 → EReal) (wout : Fin 1024 → Fin 1024 → EReal)
    (bias : Fin 1024 → EReal) (b : Fin 2) (s : Fin 2048) (e : Fin 1024) :
    result x wqkv wout bias b s e
      = projBias (fun (_ : Unit) (k : Fin 1024) => attn (proj x wqkv) b ⟨k.val / 64, by omega⟩ s ⟨k.val % 64, by omega⟩) wout bias () e := rfl

end Cert.Spec

end
-- ==== Proof.Pay0.lean ====
/-
  The projection kernel's stored value read at an index: a 512×1024 block times the 1024×3072 weights, accumulated from
  zero, is at row p, column q the sum over k of the block's (p, k) entry times the weights' (k, q) entry.
-/
import proofs.«155993_j2439541424406_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Idealize.ShloMosaic Idealize.ShloMosaic.ValueIdx Cert.KernelIdeal Cert.KernelIdeal.Gen

/-! The operand indices of `dot_S512x1024_S1024x3072_S512x3072_1_0_0_1_n_n` at an output index and a contraction index, coordinate by coordinate. -/
theorem mm0_apply_l0 (i : S512x3072.Idx) (c : dot_S512x1024_S1024x3072_S512x3072_1_0_0_1_n_n.contr.Idx) : (dot_S512x1024_S1024x3072_S512x3072_1_0_0_1_n_n.lhsIdx i c 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem mm0_apply_l1 (i : S512x3072.Idx) (c : dot_S512x1024_S1024x3072_S512x3072_1_0_0_1_n_n.contr.Idx) : (dot_S512x1024_S1024x3072_S512x3072_1_0_0_1_n_n.lhsIdx i c 1).val = (c ⟨0, by decide⟩).val :=
  dot_S512x1024_S1024x3072_S512x3072_1_0_0_1_n_n.lhsIdx_val_of_single rfl i c
theorem mm0_apply_r1 (i : S512x3072.Idx) (c : dot_S512x1024_S1024x3072_S512x3072_1_0_0_1_n_n.contr.Idx) : (dot_S512x1024_S1024x3072_S512x3072_1_0_0_1_n_n.rhsIdx i c 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem mm0_apply_r0 (i : S512x3072.Idx) (c : dot_S512x1024_S1024x3072_S512x3072_1_0_0_1_n_n.contr.Idx) : (dot_S512x1024_S1024x3072_S512x3072_1_0_0_1_n_n.rhsIdx i c 0).val = (c ⟨0, by decide⟩).val :=
  dot_S512x1024_S1024x3072_S512x3072_1_0_0_1_n_n.rhsIdx_val_of_single rfl i c

/-- The product `dot_S512x1024_S1024x3072_S512x3072_1_0_0_1_n_n` into the zero accumulator, read at row `p`, column `q`: the sum over the contracted coordinate. -/
theorem mm0_apply {φ₁ φ₂ : FTy} (lhs : FVec Ideal S512x1024 φ₁) (rhs : FVec Ideal S1024x3072 φ₂) (p : Fin 512) (q : Fin 3072) :
    FloatOps.matmul dot_S512x1024_S1024x3072_S512x3072_1_0_0_1_n_n none lhs rhs (constant (F := Ideal) S512x3072 .f32 0x00000000#32) (ix2 p q)
      = ∑ k : Fin 1024, lhs (ix2 p k) * rhs (ix2 k q) := by
  refine (Ideal.matmul_constant_zero_apply dot_S512x1024_S1024x3072_S512x3072_1_0_0_1_n_n none lhs rhs (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact mm0_apply_l0 _ _
    | ⟨1, _⟩ => exact (mm0_apply_l1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨1, _⟩ => exact mm0_apply_r1 _ _
    | ⟨0, _⟩ => exact (mm0_apply_r0 _ _).trans hk)
  rw [el, er]

/-- The projection kernel's stored block at row `p`, column `q`: the reshapes to the same shape and the change of
    format are the identity, so it is the product's sum over the 1024 contracted columns. -/
theorem pay0_apply (x0 : Vec Ideal S512x1024 .f32) (x1 : Vec Ideal S1024x3072 .bf16) (p : Fin 512) (q : Fin 3072) :
    k0_pay1 (F := Ideal) x0 x1 (ix2 p q) = ∑ k : Fin 1024, x0 (ix2 p k) * x1 (ix2 k q) := by
  unfold k0_pay1
  refine (mm0_apply _ _ p q).trans ?_
  rw [shapeCast_self, shapeCast_self]
  rfl

end Cert.Pay

end
-- ==== Proof.Val0.lean ====
/-
  What region 0 (the projection) leaves in its output array, at the ideal instance: the matrix product of the two
  arrays it reads, index by index.

  The grid has 8 points; point `t` stages rows 512t … 512t + 511 of the flattened input (all 1024 columns) and the
  whole projection matrix, and writes back rows 512t … 512t + 511 of the output (all 3072 columns). The stored block's
  entry at in-block row `p`, column `q` is the sum over the 1024 contracted columns of the input block's row `p`
  times the matrix's column `q`; row `p` of the input block at point `t` is row 512t + p of the input array, which
  is the output block's row in the output array. So what each point writes back is its block of the product array, the
  8 blocks cover the 4096 rows, and the array ends holding the product.
-/
import proofs.«155993_j2439541424406_2_alg».proof.Proof.KI.Data
import proofs.«155993_j2439541424406_2_alg».proof.Proof.Pay0
import proofs.«155993_j2439541424406_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The loads' and the store's offsets are zero on both axes. -/
theorem zeros0 : (![0, 0] : Fin 2 → Nat) = fun _ => 0 := funext fun a => by fin_cases a <;> rfl

/-- The product array: entry (r, e) is the sum over the contracted index of the left array's row `r` times the right
    array's column `e`. -/
def prod0 (a0 : S4096x1024.Idx → EReal) (a1 : S1024x3072.Idx → EReal) : S4096x3072.Idx → EReal :=
  fun i => ∑ k : Fin 1024, a0 (ix2 (i 0) k) * a1 (ix2 k (i 1))

/-- The stored block, entry by entry, over any two loaded blocks: the one whole-block store of the payload. -/
theorem block0_apply (x0 : Vec Ideal S512x1024 .f32) (x1 : Vec Ideal S1024x3072 .bf16) (p : Fin 512) (q : Fin 3072) :
    out0_2 (F := Ideal) x0 x1 (ix2 p q) = ∑ k : Fin 1024, x0 (ix2 p k) * x1 (ix2 k q) := by
  unfold out0_2
  rw [View.canon_unit_zero zeros0]
  simp only [View.ld_unit_zero (S := S512x1024) zeros0, View.ld_unit_zero (S := S1024x3072) zeros0]
  exact Cert.Pay.pay0_apply x0 x1 p q

/-- The printed index maps, decided over the grid: the input block and the output block sit at block row `t`, block
    column 0; the matrix's block is the whole matrix. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem index_onto0 : ∀ q0 : Fin 8, ∃ t : Fin cfg0.N, win0_2.index t (0 : Fin 2) = q0.val ∧ win0_2.index t (1 : Fin 2) = 0 :=
  (by decide +kernel : ∀ q0 : Fin 8, ∃ t : Fin grid0.N, win0_2.index t (0 : Fin 2) = q0.val ∧ win0_2.index t (1 : Fin 2) = 0)

/-- What point `t` writes back is block `t` of the product of the two arrays as the region finds them. -/
theorem flushed0_eq (c : Dev nD) (t : Fin cfg0.N) :
    (dat0 V c).flushed 2 t = ((cfg0.win 2).blk t).view.read (Elt Ideal) (prod0 (V c main_v0) (V c main_v1)) := by
  show (cfg0.win 2).cut (grid0.coords t) ((dat0 V c).after 2 t) = _
  rw [after0_2]
  obtain ⟨e0, e1, e2, e3, e4, e5⟩ := index0 t
  funext j
  obtain ⟨p, q, rfl⟩ : ∃ (p : Fin 512) (q : Fin 3072), j = ix2 p q := ⟨j 0, j 1, eq_ix2 j⟩
  show out0_2 (F := Ideal) (iblk0 V c 0 t) (iblk0 V c 1 t) (ix2 p q) = prod0 (V c main_v0) (V c main_v1) (((cfg0.win 2).blk t).view.emb (ix2 p q))
  refine (block0_apply _ _ p q).trans ?_
  unfold prod0
  refine Finset.sum_congr rfl fun k _ => ?_
  have h0 : (iblk0 V c 0 t : Vec Ideal S512x1024 .f32) (ix2 p k)
      = V c main_v0 (ix2 ((((cfg0.win 2).blk t).view.emb (ix2 p q)) 0) k) := by
    show V c main_v0 (((cfg0.win 0).blk t).view.emb (ix2 p k)) = V c main_v0 _
    refine congrArg _ ?_
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : (iblk0 V c 1 t : Vec Ideal S1024x3072 .bf16) (ix2 k q)
      = V c main_v1 (ix2 k ((((cfg0.win 2).blk t).view.emb (ix2 p q)) 1)) := by
    show V c main_v1 (((cfg0.win 1).blk t).view.emb (ix2 k q)) = V c main_v1 _
    refine congrArg _ ?_
    funext a; apply Fin.ext
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  rw [h0, h1]

/-- An index of the output array is in point `t`'s block iff each coordinate is in the block's range on its axis. -/
theorem mem_blk0 (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v3).slice (win0_2.rect t)).set ↔ _
  rw [View.set_slice_whole, Rect.mem_set_unit]
  exact Iff.rfl

/-- The 8 blocks of 512 rows cover the 4096 rows: row `r` is in the block of the point at block row `r / 512`. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, q0, q1⟩ := index_onto0 ⟨(i 0).val / 512, by omega⟩
  have q0' : win0_2.index t (0 : Fin 2) = (i 0).val / 512 := q0
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after the region: the product of the two arrays the region found. -/
theorem final0 (c : Dev nD) : (dat0 V c).arrAt 2 cfg0.N = prod0 (V c main_v0) (V c main_v1) :=
  (dat0 V c).arrAt_eq_of_cover 2 (prod0 (V c main_v0) (V c main_v1)) (fun t _ => flushed0_eq V c t) cover0

/-- The product array at (r, e), as the sum. -/
theorem prod0_apply (a0 : S4096x1024.Idx → EReal) (a1 : S1024x3072.Idx → EReal) (r : Fin 4096) (e : Fin 3072) :
    prod0 a0 a1 (ix2 r e) = ∑ k : Fin 1024, a0 (ix2 r k) * a1 (ix2 k e) := rfl

/-- Entry (r, e) of the output array after the region: row `r` of the first array against column `e` of the second. -/
theorem arr0_eq (c : Dev nD) (r : Fin 4096) (e : Fin 3072) :
    (Hand.dat0 (F := Ideal) V c).arrAt 2 cfg0.N (ix2 r e)
      = Cert.Spec.proj (fun r k => V c main_v0 (ix2 r k)) (fun k e => V c main_v1 (ix2 k e)) r e :=
  congrFun (final0 V c) (ix2 r e)

end Cert.KernelIdeal.Val

end
-- ==== Proof.Pay1.lean ====
/-
  The attention kernel's stored value read at an index. Per group of 128 columns the body computes two heads; a head
  takes 64 columns of the query block [512, 128] and of the key and value blocks [2048, 128], forms the scores (queries
  against keys over the 64 columns, times 1/8), each row's maximum from minus infinity, the exponentials of the scores
  less the maximum, each row's sum of them, the exponentials against the values, and divides by the sums; the two
  heads' [512, 64] results lie side by side. At the extended reals the changes of format are the identity, so at row p,
  column 64 g + d the stored block is head g's output at (p, d).
-/
import proofs.«155993_j2439541424406_2_alg».proof.Proof.Gen.KernelIdeal.Skeleton
import proofs.«155993_j2439541424406_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Idealize.ShloMosaic Idealize.ShloMosaic.ValueIdx Cert.KernelIdeal Cert.KernelIdeal.Gen

/-! The operand indices of `dot_S512x64_S2048x64_S512x2048_1_1_0_0_n_n` at an output index and a contraction index, coordinate by coordinate. -/
theorem mmqk_apply_l0 (i : S512x2048.Idx) (c : dot_S512x64_S2048x64_S512x2048_1_1_0_0_n_n.contr.Idx) : (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem mmqk_apply_l1 (i : S512x2048.Idx) (c : dot_S512x64_S2048x64_S512x2048_1_1_0_0_n_n.contr.Idx) : (dot_S512x64_S2048x64_S512x2048_1_1_0_0_n_n.lhsIdx i c 1).val = (c ⟨0, by decide⟩).val :=
  dot_S512x64_S2048x64_S512x2048_1_1_0_0_n_n.lhsIdx_val_of_single rfl i c
theorem mmqk_apply_r0 (i : S512x2048.Idx) (c : dot_S512x64_S2048x64_S512x2048_1_1_0_0_n_n.contr.Idx) : (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem mmqk_apply_r1 (i : S512x2048.Idx) (c : dot_S512x64_S2048x64_S512x2048_1_1_0_0_n_n.contr.Idx) : (dot_S512x64_S2048x64_S512x2048_1_1_0_0_n_n.rhsIdx i c 1).val = (c ⟨0, by decide⟩).val :=
  dot_S512x64_S2048x64_S512x2048_1_1_0_0_n_n.rhsIdx_val_of_single rfl i c

/-- The product `dot_S512x64_S2048x64_S512x2048_1_1_0_0_n_n` into the zero accumulator, read at row `p`, column `q`: the sum over the contracted coordinate. -/
theorem mmqk_apply {φ₁ φ₂ : FTy} (lhs : FVec Ideal S512x64 φ₁) (rhs : FVec Ideal S2048x64 φ₂) (p : Fin 512) (q : Fin 2048) :
    FloatOps.matmul dot_S512x64_S2048x64_S512x2048_1_1_0_0_n_n none lhs rhs (constant (F := Ideal) S512x2048 .f32 0x00000000#32) (ix2 p q)
      = ∑ k : Fin 64, lhs (ix2 p k) * rhs (ix2 q k) := by
  refine (Ideal.matmul_constant_zero_apply dot_S512x64_S2048x64_S512x2048_1_1_0_0_n_n none lhs rhs (ix2 p q)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p q) ((contrEquiv1 dot_S512x64_S2048x64_S512x2048_1_1_0_0_n_n 64 rfl rfl).symm k) = ix2 p k := funext fun a => Fin.ext (by
    match a with
    | ⟨0, _⟩ => exact mmqk_apply_l0 _ _
    | ⟨1, _⟩ => exact (mmqk_apply_l1 _ _).trans hk)
  have er : dot_S512x64_S2048x64_S512x2048_1_1_0_0_n_n.rhsIdx (ix2 p q) ((contrEquiv1 dot_S512x64_S2048x64_S512x2048_1_1_0_0_n_n 64 rfl rfl).symm k) = ix2 q k := funext fun a => Fin.ext (by
    match a with
    | ⟨0, _⟩ => exact mmqk_apply_r0 _ _
    | ⟨1, _⟩ => exact (mmqk_apply_r1 _ _).trans hk)
  rw [el, er]

/-! The operand indices of `dot_S512x2048_S2048x64_S512x64_1_0_0_1_n_n` at an output index and a contraction index, coordinate by coordinate. -/
theorem mmpv_apply_l0 (i : S512x64.Idx) (c : dot_S512x2048_S2048x64_S512x64_1_0_0_1_n_n.contr.Idx) : (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem mmpv_apply_l1 (i : S512x64.Idx) (c : dot_S512x2048_S2048x64_S512x64_1_0_0_1_n_n.contr.Idx) : (dot_S512x2048_S2048x64_S512x64_1_0_0_1_n_n.lhsIdx i c 1).val = (c ⟨0, by decide⟩).val :=
  dot_S512x2048_S2048x64_S512x64_1_0_0_1_n_n.lhsIdx_val_of_single rfl i c
theorem mmpv_apply_r1 (i : S512x64.Idx) (c : dot_S512x2048_S2048x64_S512x64_1_0_0_1_n_n.contr.Idx) : (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem mmpv_apply_r0 (i : S512x64.Idx) (c : dot_S512x2048_S2048x64_S512x64_1_0_0_1_n_n.contr.Idx) : (dot_S512x2048_S2048x64_S512x64_1_0_0_1_n_n.rhsIdx i c 0).val = (c ⟨0, by decide⟩).val :=
  dot_S512x2048_S2048x64_S512x64_1_0_0_1_n_n.rhsIdx_val_of_single rfl i c

/-- The product `dot_S512x2048_S2048x64_S512x64_1_0_0_1_n_n` into the zero accumulator, read at row `p`, column `q`: the sum over the contracted coordinate. -/
theorem mmpv_apply {φ₁ φ₂ : FTy} (lhs : FVec Ideal S512x2048 φ₁) (rhs : FVec Ideal S2048x64 φ₂) (p : Fin 512) (q : Fin 64) :
    FloatOps.matmul dot_S512x2048_S2048x64_S512x64_1_0_0_1_n_n none lhs rhs (constant (F := Ideal) S512x64 .f32 0x00000000#32) (ix2 p q)
      = ∑ k : Fin 2048, lhs (ix2 p k) * rhs (ix2 k q) := by
  refine (Ideal.matmul_constant_zero_apply dot_S512x2048_S2048x64_S512x64_1_0_0_1_n_n none lhs rhs (ix2 p q)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k := funext fun a => Fin.ext (by
    match a with
    | ⟨0, _⟩ => exact mmpv_apply_l0 _ _
    | ⟨1, _⟩ => exact (mmpv_apply_l1 _ _).trans hk)
  have er : dot_S512x2048_S2048x64_S512x64_1_0_0_1_n_n.rhsIdx (ix2 p q) ((contrEquiv1 dot_S512x2048_S2048x64_S512x64_1_0_0_1_n_n 2048 rfl rfl).symm k) = ix2 k q := funext fun a => Fin.ext (by
    match a with
    | ⟨1, _⟩ => exact mmpv_apply_r1 _ _
    | ⟨0, _⟩ => exact (mmpv_apply_r0 _ _).trans hk)
  rw [el, er]

/-! ## The keepdims column forms: a vector as one column, a column broadcast along the rows -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions over a row -/

/-- The index a reduction over the columns reads at row `p`, column `k`. -/
theorem lift_row (h : S512x2048.Reduces [1] S512) (p : Fin 512) (k : Fin 2048) : h.lift (ix1 p) k = ix2 p k :=
  funext fun c => Fin.ext (by
    match c with
    | ⟨0, _⟩ => rfl
    | ⟨1, _⟩ => rfl)

/-- A row's maximum from minus infinity: the fold of `max` over the row's 2048 entries. -/
theorem rowMax_apply (S : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 S 0xFF800000#32 h hφ hacc (ix1 p)
      = Cert.Spec.rowMax (fun k : Fin 2048 => S (ix2 p k)) := by
  refine (Ideal.multiReduction_maximumf_single S 0xFF800000#32 h hφ hacc (ix1 p)).trans ?_
  have e : (S ∘ h.lift (ix1 p)) = fun k : Fin 2048 => S (ix2 p k) := funext fun k => congrArg S (lift_row h p k)
  exact congrArg (fun f => (Finset.univ : Finset (Fin 2048)).fold max Cert.Spec.negInf f) e

/-- A row's sum from zero: the sum of the row's 2048 entries. -/
theorem rowSum_apply (E : FVec Ideal S512x2048 .f32) (h : S512x2048.Reduces [1] S512) (hφ : FKind.Formats .f32)
    (hacc : (0x00000000#32 : BitVec 32) = FKind.add.neutral .f32 hφ) (p : Fin 512) :
    multiReduction .add [1] S512 E 0x00000000#32 h hφ hacc (ix1 p) = ∑ k : Fin 2048, E (ix2 p k) :=
  (Ideal.multiReduction_add_single E 0x00000000#32 h hφ hacc (ix1 p)).trans
    (Finset.sum_congr rfl fun k _ => congrArg E (lift_row h p k))

/-! ## One head, over the sliced operands -/

/-- A head's scores: the queries against the keys over the head's 64 columns, times the scale. -/
def scoresV (q : FVec Ideal S512x64 .bf16) (k : FVec Ideal S2048x64 .bf16) : FVec Ideal S512x2048 .f32 :=
  mulf (matmul dot_S512x64_S2048x64_S512x2048_1_1_0_0_n_n none q k (constant S512x2048 .f32 0x00000000#32))
    (broadcast S512x2048 (Scalar.ofBits .f32 0x3E000000#32))

/-- The exponentials of the scores less their row's maximum, the maximum kept as a column and broadcast back. -/
def expV (S : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) : FVec Ideal S512x2048 .f32 :=
  exp (subf S (broadcastTo S512x2048 (shapeCast S512x1 (multiReduction .maximumf [1] S512 S 0xFF800000#32 hr hφ hmax) hc) hb))

/-- The rows' sums, kept as a column. -/
def sumV (E : FVec Ideal S512x2048 .f32) (hr : S512x2048.Reduces [1] S512) (hφ : FKind.Formats .f32)
    (hadd : (0x00000000#32 : BitVec 32) = FKind.add.neutral .f32 hφ) (hc : S512.ShapeCasts S512x1) : FVec Ideal S512x1 .f32 :=
  shapeCast S512x1 (multiReduction .add [1] S512 E 0x00000000#32 hr hφ hadd) hc

/-- The weights against the values, divided by the column of sums broadcast along the rows. -/
def outV (E : FVec Ideal S512x2048 .f32) (l : FVec Ideal S512x1 .f32) (v : FVec Ideal S2048x64 .bf16)
    (hlt : FTy.bits .bf16 < FTy.bits .f32) (hb : S512x1.Broadcasts S512x64) : FVec Ideal S512x64 .f32 :=
  divf (matmul dot_S512x2048_S2048x64_S512x64_1_0_0_1_n_n none (truncf .bf16 E hlt) v (constant S512x64 .f32 0x00000000#32)) (broadcastTo S512x64 l hb)

theorem scoresV_apply (q : FVec Ideal S512x64 .bf16) (k : FVec Ideal S2048x64 .bf16) (p : Fin 512) (j : Fin 2048) :
    scoresV q k (ix2 p j)
      = Cert.Spec.score (fun (r : Fin 512) (d : Fin 64) => q (ix2 r d)) (fun (c : Fin 2048) (d : Fin 64) => k (ix2 c d)) p j :=
  congrArg (· * Cert.Spec.eighth) (mmqk_apply q k p j)

theorem expV_apply (S : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) (p : Fin 512) (j : Fin 2048) :
    expV S hr hφ hmax hc hb (ix2 p j) = Ideal.exp (S (ix2 p j) - Cert.Spec.rowMax (fun c : Fin 2048 => S (ix2 p c))) := by
  have e : broadcastTo S512x2048 (shapeCast S512x1 (multiReduction .maximumf [1] S512 S 0xFF800000#32 hr hφ hmax) hc) hb (ix2 p j)
      = Cert.Spec.rowMax (fun c : Fin 2048 => S (ix2 p c)) :=
    (broadcastTo_a1_ab_apply _ hb p j).trans ((shapeCast_a_a1_apply _ hc p 0).trans (rowMax_apply S hr hφ hmax p))
  exact congrArg (fun m => Ideal.exp (S (ix2 p j) - m)) e

theorem sumV_apply (E : FVec Ideal S512x2048 .f32) (hr : S512x2048.Reduces [1] S512) (hφ : FKind.Formats .f32)
    (hadd : (0x00000000#32 : BitVec 32) = FKind.add.neutral .f32 hφ) (hc : S512.ShapeCasts S512x1) (p : Fin 512) (u : Fin 1) :
    sumV E hr hφ hadd hc (ix2 p u) = ∑ c : Fin 2048, E (ix2 p c) :=
  (shapeCast_a_a1_apply _ hc p u).trans (rowSum_apply E hr hφ hadd p)

theorem outV_apply (E : FVec Ideal S512x2048 .f32) (l : FVec Ideal S512x1 .f32) (v : FVec Ideal S2048x64 .bf16)
    (hlt : FTy.bits .bf16 < FTy.bits .f32) (hb : S512x1.Broadcasts S512x64) (p : Fin 512) (d : Fin 64) :
    outV E l v hlt hb (ix2 p d) = Ideal.div (∑ c : Fin 2048, E (ix2 p c) * v (ix2 c d)) (l (ix2 p (0 : Fin 1))) :=
  congrArg₂ Ideal.div (mmpv_apply (truncf .bf16 E hlt) v p d) (broadcastTo_a1_ab_apply l hb p d)

/-- One head over its sliced operands: the exponentials' weighted sum of the value rows divided by the exponentials' sum. -/
theorem head_apply (q : FVec Ideal S512x64 .f32) (k v : FVec Ideal S2048x64 .f32) (hlt : FTy.bits .bf16 < FTy.bits .f32)
    (hr : S512x2048.Reduces [1] S512) (hφ : FKind.Formats .f32)
    (hmax : (0xFF800000#32 : BitVec 32) = FKind.maximumf.neutral .f32 hφ)
    (hadd : (0x00000000#32 : BitVec 32) = FKind.add.neutral .f32 hφ) (hc : S512.ShapeCasts S512x1)
    (hb : S512x1.Broadcasts S512x2048) (hb' : S512x1.Broadcasts S512x64) (p : Fin 512) (d : Fin 64) :
    outV (expV (scoresV (truncf .bf16 q hlt) (truncf .bf16 k hlt)) hr hφ hmax hc hb)
        (sumV (expV (scoresV (truncf .bf16 q hlt) (truncf .bf16 k hlt)) hr hφ hmax hc hb) hr hφ hadd hc)
        (truncf .bf16 v hlt) hlt hb' (ix2 p d)
      = Cert.Spec.headOut (fun (r : Fin 512) (d' : Fin 64) => q (ix2 r d')) (fun (c : Fin 2048) (d' : Fin 64) => k (ix2 c d'))
          (fun (c : Fin 2048) (d' : Fin 64) => v (ix2 c d')) p d := by
  have hE : ∀ j : Fin 2048, expV (scoresV (truncf .bf16 q hlt) (truncf .bf16 k hlt)) hr hφ hmax hc hb (ix2 p j)
      = Cert.Spec.expRow (fun (r : Fin 512) (d' : Fin 64) => q (ix2 r d')) (fun (c : Fin 2048) (d' : Fin 64) => k (ix2 c d')) p j := fun j => by
    refine (expV_apply _ hr hφ hmax hc hb p j).trans ?_
    have hs : (fun c : Fin 2048 => scoresV (truncf .bf16 q hlt) (truncf .bf16 k hlt) (ix2 p c))
        = Cert.Spec.score (fun (r : Fin 512) (d' : Fin 64) => q (ix2 r d')) (fun (c : Fin 2048) (d' : Fin 64) => k (ix2 c d')) p :=
      funext fun c => scoresV_apply _ _ p c
    rw [hs, scoresV_apply]
    rfl
  refine (outV_apply _ _ _ hlt hb' p d).trans ?_
  unfold Cert.Spec.headOut
  refine congrArg₂ Ideal.div (Finset.sum_congr rfl fun j _ => congrArg (· * v (ix2 j d)) (hE j)) ?_
  exact (sumV_apply _ hr hφ hadd hc p 0).trans (Finset.sum_congr rfl fun j _ => hE j)

/-! ## The two heads of the body, and their concatenation -/

/-- Columns `o … o + 63` of a 128-column array, `o = 64 g`, read by row and column. -/
theorem slice_cols {α : Type} {n : ℕ} (o : ℕ) (X : (⟨2, ![n, 128]⟩ : Shape).Idx → α)
    (hc : (⟨2, ![n, 128]⟩ : Shape).ShapeCasts ⟨2, ![n, 128]⟩) (hs : (⟨2, ![n, 128]⟩ : Shape).Slices ![0, o] ⟨2, ![n, 64]⟩)
    (g : Fin 2) (hg : o = 64 * g.val) :
    (fun (r : Fin n) (d' : Fin 64) => extractStridedSlice ⟨2, ![n, 64]⟩ ![0, o] (shapeCast ⟨2, ![n, 128]⟩ X hc) hs (ix2 r d'))
      = fun (r : Fin n) (d' : Fin 64) => X (ix2 r ⟨64 * g.val + d'.val, by omega⟩) :=
  funext fun r => funext fun d' => by
    rw [shapeCast_self]
    exact slice2_axis1_apply o X hs r d' ⟨64 * g.val + d'.val, by omega⟩ (by show 64 * g.val + d'.val = o + d'.val; omega)

/-- A head's output depends on its three operands only. -/
theorem headOut_congr {R K : Type} [Fintype K] {q q' : R → Fin 64 → EReal} {k k' v v' : K → Fin 64 → EReal}
    (hq : q = q') (hk : k = k') (hv : v = v') (r : R) (d : Fin 64) :
    Cert.Spec.headOut q k v r d = Cert.Spec.headOut q' k' v' r d := by
  subst hq hk hv; rfl

/-- The first head: columns 0 … 63 of the three blocks. -/
theorem pay1_head0 (v0 : Vec Ideal S512x128 .f32) (v2 v4 : Vec Ideal S2048x128 .f32) (p : Fin 512) (g : Fin 2)
    (hg : g.val = 0) (d : Fin 64) :
    k1_pay5 (F := Ideal) v0 v2 v4 (ix2 p d)
      = Cert.Spec.headOut (fun (r : Fin 512) (d' : Fin 64) => v0 (ix2 r ⟨64 * g.val + d'.val, by omega⟩))
          (fun (k : Fin 2048) (d' : Fin 64) => v2 (ix2 k ⟨64 * g.val + d'.val, by omega⟩))
          (fun (k : Fin 2048) (d' : Fin 64) => v4 (ix2 k ⟨64 * g.val + d'.val, by omega⟩)) p d := by
  unfold k1_pay5 k1_pay2 k1_pay3 k1_pay4
  refine (head_apply _ _ _ _ _ _ _ _ _ _ _ p d).trans ?_
  refine headOut_congr ?_ ?_ ?_ p d
  · exact slice_cols 0 v0 _ _ g (by omega)
  · exact slice_cols 0 v2 _ _ g (by omega)
  · exact slice_cols 0 v4 _ _ g (by omega)

/-- The second head: columns 64 … 127 of the three blocks. -/
theorem pay1_head1 (v0 : Vec Ideal S512x128 .f32) (v2 v4 : Vec Ideal S2048x128 .f32) (p : Fin 512) (g : Fin 2)
    (hg : g.val = 1) (d : Fin 64) (hlt : FTy.bits .bf16 < FTy.bits .f32) (hb : S512x1.Broadcasts S512x64) :
    outV (k1_pay7 (F := Ideal) v0 v2) (k1_pay8 (F := Ideal) v0 v2) (k1_pay6 (F := Ideal) v4) hlt hb (ix2 p d)
      = Cert.Spec.headOut (fun (r : Fin 512) (d' : Fin 64) => v0 (ix2 r ⟨64 * g.val + d'.val, by omega⟩))
          (fun (k : Fin 2048) (d' : Fin 64) => v2 (ix2 k ⟨64 * g.val + d'.val, by omega⟩))
          (fun (k : Fin 2048) (d' : Fin 64) => v4 (ix2 k ⟨64 * g.val + d'.val, by omega⟩)) p d := by
  unfold k1_pay8 k1_pay7 k1_pay6 k1_pay2 k1_pay3 k1_pay4
  refine (head_apply _ _ _ _ _ _ _ _ _ _ _ p d).trans ?_
  refine headOut_congr ?_ ?_ ?_ p d
  · exact slice_cols 64 v0 _ _ g (by omega)
  · exact slice_cols 64 v2 _ _ g (by omega)
  · exact slice_cols 64 v4 _ _ g (by omega)

/-- The attention body's stored block at row `p`, column `64 g + d`: head `g` of the group, over columns
    `64 g … 64 g + 63` of the query, key and value blocks, at row `p`, column `d`. -/
theorem pay1_apply (v0 : Vec Ideal S512x128 .f32) (v2 v4 : Vec Ideal S2048x128 .f32) (p : Fin 512) (g : Fin 2) (d : Fin 64) :
    k1_pay1 (F := Ideal) (k1_pay5 v0 v2 v4) (k1_pay6 v4) (k1_pay7 v0 v2) (k1_pay8 v0 v2) (ix2 p ⟨64 * g.val + d.val, by omega⟩)
      = Cert.Spec.headOut (fun (r : Fin 512) (d' : Fin 64) => v0 (ix2 r ⟨64 * g.val + d'.val, by omega⟩))
          (fun (k : Fin 2048) (d' : Fin 64) => v2 (ix2 k ⟨64 * g.val + d'.val, by omega⟩))
          (fun (k : Fin 2048) (d' : Fin 64) => v4 (ix2 k ⟨64 * g.val + d'.val, by omega⟩)) p d := by
  have hg : g.val = 0 ∨ g.val = 1 := by omega
  unfold k1_pay1
  rcases hg with hg | hg
  · refine (concatenate_pair_apply_left (t := S512x128) (s₁ := S512x64) (s₂ := S512x64) (1 : Fin 2) _ _ _
      (ix2 p (⟨64 * g.val + d.val, by omega⟩ : Fin 128)) rfl (ix2 p d) (fun b => ?_)).trans ?_
    · match b with
      | ⟨0, _⟩ => rfl
      | ⟨1, _⟩ => show d.val = 64 * g.val + d.val; omega
    · exact pay1_head0 v0 v2 v4 p g hg d
  · refine (concatenate_pair_apply_right (t := S512x128) (s₁ := S512x64) (s₂ := S512x64) (1 : Fin 2) _ _ _
      (ix2 p (⟨64 * g.val + d.val, by omega⟩ : Fin 128)) rfl rfl (ix2 p d) (fun b hb => ?_) ?_).trans ?_
    · match b with
      | ⟨0, _⟩ => rfl
      | ⟨1, _⟩ => exact absurd rfl hb
    · show d.val + 64 = 64 * g.val + d.val; omega
    · exact pay1_head1 v0 v2 v4 p g hg d _ _

end Cert.Pay

end
-- ==== Proof.Val1.lean ====
/-
  Region 1 (attention), the value of its output array. After the region's 64 grid points the attention output array
  holds, at row `2048·b + s` and column `64·h + d`, the attention output of the projected array as the region found
  it: head `h` of batch `b` at query row `s`, column `d`.

  The point at grid coordinates (batch `b`, column group `hg`, query tile `qi`) stages the query rows
  `2048·b + 512·qi …` at columns `128·hg …`, the batch's 2048 key rows at columns `1024 + 128·hg …` and its 2048
  value rows at columns `2048 + 128·hg …`, and writes back rows `2048·b + 512·qi …`, columns `128·hg …` of the output:
  two heads side by side, head `2·hg + g` at in-block columns `64·g …`. So what each point writes back is its block of
  one function of the projected array, and the 64 blocks tile the output array.
-/
import proofs.«155993_j2439541424406_2_alg».proof.Proof.KI.Data
import proofs.«155993_j2439541424406_2_alg».proof.Proof.Pay1
import proofs.«155993_j2439541424406_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## One head's output depends on the query rows only through the row asked for -/

theorem headOut_congr {R R' K : Type} [Fintype K] (qf : R → Fin 64 → EReal) (qf' : R' → Fin 64 → EReal)
    (kf kf' vf vf' : K → Fin 64 → EReal) (r : R) (r' : R') (d : Fin 64)
    (hq : qf r = qf' r') (hk : kf = kf') (hv : vf = vf') :
    Cert.Spec.headOut qf kf vf r d = Cert.Spec.headOut qf' kf' vf' r' d := by
  subst hk hv
  have hs : Cert.Spec.score qf kf r = Cert.Spec.score qf' kf r' := by
    funext k; unfold Cert.Spec.score; rw [hq]
  have he : Cert.Spec.expRow qf kf r = Cert.Spec.expRow qf' kf r' := by
    funext k; unfold Cert.Spec.expRow; rw [hs]
  unfold Cert.Spec.headOut; rw [he]

/-! ## The attention output array as one function of the projected array -/

/-- The attention output at row `2048·b + s`, column `64·h + d`, of the projected array `Q`. -/
def G1 (Q : S4096x3072.Idx → EReal) : S4096x1024.Idx → EReal := fun i =>
  Cert.Spec.attn (fun r e => Q (ix2 r e))
    ⟨(i 0).val / 2048, by have h : (i 0).val < 4096 := (i 0).isLt; omega⟩
    ⟨(i 1).val / 64, by have h : (i 1).val < 1024 := (i 1).isLt; omega⟩
    ⟨(i 0).val % 2048, by omega⟩ ⟨(i 1).val % 64, by omega⟩

theorem G1_apply (Q : S4096x3072.Idx → EReal) (i : S4096x1024.Idx) (b : Fin 2) (s : Fin 2048) (h : Fin 16) (d : Fin 64)
    (h0 : (i 0).val = 2048 * b.val + s.val) (h1 : (i 1).val = 64 * h.val + d.val) :
    G1 Q i = Cert.Spec.attn (fun r e => Q (ix2 r e)) b h s d := by
  unfold G1
  congr 1 <;> apply Fin.ext <;> simp only [] <;> omega

/-! ## The grid's index maps -/

theorem hz : (![0, 0] : Fin 2 → Nat) = fun _ => 0 := funext fun a => by fin_cases a <;> rfl

/-- The printed index maps, decided over the grid: the query window moves with the output window; the key and value
    windows sit at the output's batch (its row block over 4) and at its column block plus 8, plus 16; the output's
    block indices stay below 8. -/
theorem idx_facts1 : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2) / 4
    ∧ win1_1.index t (1 : Fin 2) = win1_3.index t (1 : Fin 2) + 8
    ∧ win1_2.index t (0 : Fin 2) = win1_3.index t (0 : Fin 2) / 4
    ∧ win1_2.index t (1 : Fin 2) = win1_3.index t (1 : Fin 2) + 16
    ∧ win1_3.index t (0 : Fin 2) ≤ 7 ∧ win1_3.index t (1 : Fin 2) ≤ 7 :=
  (by decide +kernel : ∀ t : Fin grid1.N, _)

/-- Every block of the output array is some point's. -/
theorem idx_onto1 : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

/-- An index of the output array is in point `t`'s block iff each coordinate is in the block's range on its axis. -/
theorem mem_blk1 (t : Fin cfg1.N) (i : S4096x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v4).slice (win1_3.rect t)).set ↔ _
  rw [View.set_slice_whole, Rect.mem_set_unit]
  exact Iff.rfl

/-- The output's blocks tile its array: the point covering row `r`, column `e` is the one at block `(r / 512, e / 128)`. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-! ## What a point writes back -/

theorem col_lt (g : Fin 2) (d : Fin 64) : 64 * g.val + d.val < 128 := by omega

theorem ix2_congr {n0 n1 : Nat} {a a' : Fin n0} {b b' : Fin n1} (ha : a.val = a'.val) (hb : b.val = b'.val) :
    ix2 a b = ix2 a' b' := by
  cases Fin.ext ha; cases Fin.ext hb; rfl

/-- The body's value at in-block coordinate `(p, q)`, when its three blocks are the projected array `Q` read at the
    output's row block `R` and column block `C` (queries), at batch `R / 4` and column blocks `C + 8` (keys) and
    `C + 16` (values): the attention output of `Q` at row `512·R + p`, column `128·C + q`. -/
theorem block_value (Q : S4096x3072.Idx → EReal)
    (x0 : Vec Ideal S512x128 .f32) (x1 x2 : Vec Ideal S2048x128 .f32)
    (R C : ℕ) (hR : R ≤ 7) (hC : C ≤ 7)
    (h0 : ∀ (r : Fin 512) (e : Fin 128), x0 (ix2 r e) = Q (ix2 ⟨512 * R + r.val, by omega⟩ ⟨128 * C + e.val, by omega⟩))
    (h1 : ∀ (k : Fin 2048) (e : Fin 128), x1 (ix2 k e) = Q (ix2 ⟨2048 * (R / 4) + k.val, by omega⟩ ⟨1024 + 128 * C + e.val, by omega⟩))
    (h2 : ∀ (k : Fin 2048) (e : Fin 128), x2 (ix2 k e) = Q (ix2 ⟨2048 * (R / 4) + k.val, by omega⟩ ⟨2048 + 128 * C + e.val, by omega⟩))
    (p : Fin 512) (q : Fin 128) (i : S4096x1024.Idx) (hi0 : (i 0).val = 512 * R + p.val) (hi1 : (i 1).val = 128 * C + q.val) :
    k1_pay1 (F := Ideal) (k1_pay5 x0 x1 x2) (k1_pay6 x2) (k1_pay7 x0 x1) (k1_pay8 x0 x1) (ix2 p q) = G1 Q i := by
  obtain ⟨g, d, rfl⟩ : ∃ (g : Fin 2) (d : Fin 64), q = ⟨64 * g.val + d.val, col_lt g d⟩ :=
    ⟨⟨q.val / 64, by omega⟩, ⟨q.val % 64, by omega⟩, Fin.ext (by show q.val = 64 * (q.val / 64) + q.val % 64; omega)⟩
  rw [Cert.Pay.pay1_apply]
  rw [G1_apply Q i ⟨R / 4, by omega⟩ ⟨512 * (R % 4) + p.val, by omega⟩ ⟨2 * C + g.val, by omega⟩ d
    (by show (i 0).val = 2048 * (R / 4) + (512 * (R % 4) + p.val); omega)
    (by show (i 1).val = 64 * (2 * C + g.val) + d.val; rw [hi1]; show 128 * C + (64 * g.val + d.val) = _; omega)]
  unfold Cert.Spec.attn
  refine headOut_congr _ _ _ _ _ _ _ _ d ?_ ?_ ?_
  · funext d'
    show x0 (ix2 p ⟨64 * g.val + d'.val, _⟩) = Q _
    rw [h0]
    refine congrArg Q (ix2_congr ?_ ?_)
    · show 512 * R + p.val = 2048 * (R / 4) + (512 * (R % 4) + p.val); omega
    · show 128 * C + (64 * g.val + d'.val) = 1024 * 0 + 64 * (2 * C + g.val) + d'.val; omega
  · funext k d'
    show x1 (ix2 k ⟨64 * g.val + d'.val, _⟩) = Q _
    rw [h1]
    refine congrArg Q (ix2_congr ?_ ?_)
    · show 2048 * (R / 4) + k.val = 2048 * (R / 4) + k.val; rfl
    · show 1024 + 128 * C + (64 * g.val + d'.val) = 1024 * 1 + 64 * (2 * C + g.val) + d'.val; omega
  · funext k d'
    show x2 (ix2 k ⟨64 * g.val + d'.val, _⟩) = Q _
    rw [h2]
    refine congrArg Q (ix2_congr ?_ ?_)
    · show 2048 * (R / 4) + k.val = 2048 * (R / 4) + k.val; rfl
    · show 2048 + 128 * C + (64 * g.val + d'.val) = 1024 * 2 + 64 * (2 * C + g.val) + d'.val; omega

/-- What point `t` writes back is block `t` of the attention output of the projected array as the region finds it. -/
theorem flushed1_eq (c : Dev nD) (t : Fin cfg1.N) :
    (dat1 V c).flushed 3 t = ((cfg1.win 3).blk t).view.read (Elt Ideal) (G1 (V c main_v3)) := by
  show (cfg1.win 3).cut (grid1.coords t) ((dat1 V c).after 3 t) = _
  rw [after1_3]
  unfold out1_3
  rw [View.canon_unit_zero hz]
  simp only [View.ld_unit_zero (S := S512x128) hz, View.ld_unit_zero (S := S2048x128) hz]
  obtain ⟨e00, e01, e10, e11, e20, e21, b0, b1⟩ := idx_facts1 t
  funext j
  obtain ⟨p, q, rfl⟩ : ∃ (p : Fin 512) (q : Fin 128), j = ix2 p q := ⟨j 0, j 1, eq_ix2 j⟩
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (k1_pay8 (iblk1 V c 0 t) (iblk1 V c 1 t)) (ix2 p q)
    = G1 (V c main_v3) (((cfg1.win 3).blk t).view.emb (ix2 p q))
  refine block_value (V c main_v3) _ _ _ (win1_3.index t (0 : Fin 2)) (win1_3.index t (1 : Fin 2)) b0 b1 ?_ ?_ ?_ p q _ ?_ ?_
  · intro r e
    show V c main_v3 (((cfg1.win 0).blk t).view.emb (ix2 r e)) = V c main_v3 _
    refine congrArg (V c main_v3) ?_
    funext a; apply Fin.ext
    match a with
    | ⟨0, _⟩ => show win1_0.index t (0 : Fin 2) * 512 + 1 * r.val = 512 * win1_3.index t (0 : Fin 2) + r.val; omega
    | ⟨1, _⟩ => show win1_0.index t (1 : Fin 2) * 128 + 1 * e.val = 128 * win1_3.index t (1 : Fin 2) + e.val; omega
  · intro k e
    show V c main_v3 (((cfg1.win 1).blk t).view.emb (ix2 k e)) = V c main_v3 _
    refine congrArg (V c main_v3) ?_
    funext a; apply Fin.ext
    match a with
    | ⟨0, _⟩ => show win1_1.index t (0 : Fin 2) * 2048 + 1 * k.val = 2048 * (win1_3.index t (0 : Fin 2) / 4) + k.val; omega
    | ⟨1, _⟩ => show win1_1.index t (1 : Fin 2) * 128 + 1 * e.val = 1024 + 128 * win1_3.index t (1 : Fin 2) + e.val; omega
  · intro k e
    show V c main_v3 (((cfg1.win 2).blk t).view.emb (ix2 k e)) = V c main_v3 _
    refine congrArg (V c main_v3) ?_
    funext a; apply Fin.ext
    match a with
    | ⟨0, _⟩ => show win1_2.index t (0 : Fin 2) * 2048 + 1 * k.val = 2048 * (win1_3.index t (0 : Fin 2) / 4) + k.val; omega
    | ⟨1, _⟩ => show win1_2.index t (1 : Fin 2) * 128 + 1 * e.val = 2048 + 128 * win1_3.index t (1 : Fin 2) + e.val; omega
  · show win1_3.index t (0 : Fin 2) * 512 + 1 * p.val = 512 * win1_3.index t (0 : Fin 2) + p.val; omega
  · show win1_3.index t (1 : Fin 2) * 128 + 1 * q.val = 128 * win1_3.index t (1 : Fin 2) + q.val; omega

/-- The attention output array after the region: the attention output of the projected array, at every index. -/
theorem arr1_final (c : Dev nD) : (dat1 V c).arrAt 3 cfg1.N = G1 (V c main_v3) :=
  (dat1 V c).arrAt_eq_of_cover 3 (G1 (V c main_v3)) (fun t _ => flushed1_eq V c t) cover1

theorem arr1_eq (c : Dev nD) (b : Fin 2) (s : Fin 2048) (h : Fin 16) (d : Fin 64) :
    (Hand.dat1 (F := Ideal) V c).arrAt 3 cfg1.N (ix2 (Cert.Spec.row b s) (Cert.Spec.hcol h d))
      = Cert.Spec.attn (fun (r : Fin 4096) (e : Fin 3072) => V c main_v3 (ix2 r e)) b h s d := by
  rw [arr1_final V c]
  exact G1_apply _ _ b s h d rfl rfl

end Cert.KernelIdeal.Val

end
-- ==== Proof.Pay2.lean ====
/-
  The output-projection kernel's stored value read at an index: a 512×1024 block times the 1024×1024 weights,
  accumulated from zero, plus the bias row broadcast down the rows, is at row p, column q the sum over k of the block's
  (p, k) entry times the weights' (k, q) entry, plus the bias at q.
-/
import proofs.«155993_j2439541424406_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Idealize.ShloMosaic Idealize.ShloMosaic.ValueIdx Cert.KernelIdeal Cert.KernelIdeal.Gen

/-! The operand indices of `dot_S512x1024_S1024x1024_S512x1024_1_0_0_1_n_n` at an output index and a contraction index, coordinate by coordinate. -/
theorem mm2_apply_l0 (i : S512x1024.Idx) (c : dot_S512x1024_S1024x1024_S512x1024_1_0_0_1_n_n.contr.Idx) : (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm2_apply_l1 (i : S512x1024.Idx) (c : dot_S512x1024_S1024x1024_S512x1024_1_0_0_1_n_n.contr.Idx) : (dot_S512x1024_S1024x1024_S512x1024_1_0_0_1_n_n.lhsIdx i c 1).val = (c ⟨0, by decide⟩).val :=
  dot_S512x1024_S1024x1024_S512x1024_1_0_0_1_n_n.lhsIdx_val_of_single rfl i c
theorem mm2_apply_r1 (i : S512x1024.Idx) (c : dot_S512x1024_S1024x1024_S512x1024_1_0_0_1_n_n.contr.Idx) : (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem mm2_apply_r0 (i : S512x1024.Idx) (c : dot_S512x1024_S1024x1024_S512x1024_1_0_0_1_n_n.contr.Idx) : (dot_S512x1024_S1024x1024_S512x1024_1_0_0_1_n_n.rhsIdx i c 0).val = (c ⟨0, by decide⟩).val :=
  dot_S512x1024_S1024x1024_S512x1024_1_0_0_1_n_n.rhsIdx_val_of_single rfl i c

/-- The product `dot_S512x1024_S1024x1024_S512x1024_1_0_0_1_n_n` into the zero accumulator, read at row `p`, column `q`: the sum over the contracted coordinate. -/
theorem mm2_apply {φ₁ φ₂ : FTy} (lhs : FVec Ideal S512x1024 φ₁) (rhs : FVec Ideal S1024x1024 φ₂) (p : Fin 512) (q : Fin 1024) :
    FloatOps.matmul dot_S512x1024_S1024x1024_S512x1024_1_0_0_1_n_n none lhs rhs (constant (F := Ideal) S512x1024 .f32 0x00000000#32) (ix2 p q)
      = ∑ k : Fin 1024, lhs (ix2 p k) * rhs (ix2 k q) := by
  refine (Ideal.matmul_constant_zero_apply dot_S512x1024_S1024x1024_S512x1024_1_0_0_1_n_n none lhs rhs (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact mm2_apply_l0 _ _
    | ⟨1, _⟩ => exact (mm2_apply_l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨1, _⟩ => exact mm2_apply_r1 _ _
    | ⟨0, _⟩ => exact (mm2_apply_r0 _ _).trans hk)
  rw [el, er]

/-- The output-projection kernel's stored block at row `p`, column `q`: the product's sum over the 1024 contracted
    columns plus the one bias row at column `q`. -/
theorem pay2_apply (x0 : Vec Ideal S512x1024 .f32) (x1 : Vec Ideal S1024x1024 .bf16) (x2 : Vec Ideal S1x1024 .f32)
    (p : Fin 512) (q : Fin 1024) :
    k2_pay1 (F := Ideal) x0 x1 x2 (ix2 p q) = (∑ k : Fin 1024, x0 (ix2 p k) * x1 (ix2 k q)) + x2 (ix2 0 q) := by
  unfold k2_pay1
  rw [shapeCast_self, shapeCast_self, shapeCast_self]
  exact congrArg₂ (· + ·) (mm2_apply _ _ p q) (broadcastTo_1b_ab_apply _ _ p q)

end Cert.Pay

end
-- ==== Proof.Val2.lean ====
/-
  What region 2 (the output projection) leaves in its output array, at the ideal instance: the matrix product of the
  attention output and the output matrix plus the bias row, index by index.

  The grid has 8 points; point `t` stages rows 512t … 512t + 511 of the attention output (all 1024 columns), the whole
  output matrix and the whole bias row, and writes back rows 512t … 512t + 511 of the output (all 1024 columns). The
  stored block's entry at in-block row `p`, column `q` is the sum over the 1024 contracted columns of the input
  block's row `p` times the matrix's column `q`, plus the bias at column `q`; row `p` of the input block at point
  `t` is row 512t + p of the input array, which is the output block's row in the output array. So what each point
  writes back is its block of that array, the 8 blocks cover the 4096 rows, and the array ends holding it.
-/
import proofs.«155993_j2439541424406_2_alg».proof.Proof.KI.Data
import proofs.«155993_j2439541424406_2_alg».proof.Proof.Pay2
import proofs.«155993_j2439541424406_2_alg».proof.Proof.Spec2
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The loads' and the store's offsets are zero on both axes. -/
theorem zeros2 : (![0, 0] : Fin 2 → Nat) = fun _ => 0 := funext fun a => by fin_cases a <;> rfl

/-- The product array plus the bias row: entry (r, e) is the sum over the contracted index of the left array's row
    `r` times the right array's column `e`, plus the row's entry at column `e`. -/
def affine2 (a0 : S4096x1024.Idx → EReal) (a1 : S1024x1024.Idx → EReal) (a2 : S1x1024.Idx → EReal) : S4096x1024.Idx → EReal :=
  fun i => (∑ k : Fin 1024, a0 (ix2 (i 0) k) * a1 (ix2 k (i 1))) + a2 (ix2 0 (i 1))

/-- The stored block, entry by entry, over any three loaded blocks: the one whole-block store of the payload. -/
theorem block2_apply (x0 : Vec Ideal S512x1024 .f32) (x1 : Vec Ideal S1024x1024 .bf16) (x2 : Vec Ideal S1x1024 .f32)
    (p : Fin 512) (q : Fin 1024) :
    out2_3 (F := Ideal) x0 x1 x2 (ix2 p q) = (∑ k : Fin 1024, x0 (ix2 p k) * x1 (ix2 k q)) + x2 (ix2 0 q) := by
  unfold out2_3
  rw [View.canon_unit_zero zeros2]
  simp only [View.ld_unit_zero (S := S512x1024) zeros2, View.ld_unit_zero (S := S1024x1024) zeros2,
    View.ld_unit_zero (S := S1x1024) zeros2]
  exact Cert.Pay.pay2_apply x0 x1 x2 p q

/-- The printed index maps, decided over the grid: the input block and the output block sit at block row `t`, block
    column 0; the matrix's block is the whole matrix and the bias row's the whole row. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row of the output is some point's. -/
theorem index_onto2 : ∀ q0 : Fin 8, ∃ t : Fin cfg2.N, win2_3.index t (0 : Fin 2) = q0.val ∧ win2_3.index t (1 : Fin 2) = 0 :=
  (by decide +kernel : ∀ q0 : Fin 8, ∃ t : Fin grid2.N, win2_3.index t (0 : Fin 2) = q0.val ∧ win2_3.index t (1 : Fin 2) = 0)

/-- What point `t` writes back is block `t` of the product plus the bias row, of the three arrays as the region finds
    them. -/
theorem flushed2_eq (c : Dev nD) (t : Fin cfg2.N) :
    (dat2 V c).flushed 3 t
      = ((cfg2.win 3).blk t).view.read (Elt Ideal) (affine2 (V c main_v4) (V c main_v2) (V c main_v5)) := by
  show (cfg2.win 3).cut (grid2.coords t) ((dat2 V c).after 3 t) = _
  rw [after2_3]
  obtain ⟨e0, e1, e2, e3, e4, e5, e6, e7⟩ := index2 t
  funext j
  obtain ⟨p, q, rfl⟩ : ∃ (p : Fin 512) (q : Fin 1024), j = ix2 p q := ⟨j 0, j 1, eq_ix2 j⟩
  show out2_3 (F := Ideal) (iblk2 V c 0 t) (iblk2 V c 1 t) (iblk2 V c 2 t) (ix2 p q)
    = affine2 (V c main_v4) (V c main_v2) (V c main_v5) (((cfg2.win 3).blk t).view.emb (ix2 p q))
  refine (block2_apply _ _ _ p q).trans ?_
  unfold affine2
  have h2 : (iblk2 V c 2 t : Vec Ideal S1x1024 .f32) (ix2 0 q)
      = V c main_v5 (ix2 0 ((((cfg2.win 3).blk t).view.emb (ix2 p q)) 1)) := by
    show V c main_v5 (((cfg2.win 2).blk t).view.emb (ix2 0 q)) = V c main_v5 _
    refine congrArg _ ?_
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  rw [h2]
  refine congrArg (· + _) ?_
  refine Finset.sum_congr rfl fun k _ => ?_
  have h0 : (iblk2 V c 0 t : Vec Ideal S512x1024 .f32) (ix2 p k)
      = V c main_v4 (ix2 ((((cfg2.win 3).blk t).view.emb (ix2 p q)) 0) k) := by
    show V c main_v4 (((cfg2.win 0).blk t).view.emb (ix2 p k)) = V c main_v4 _
    refine congrArg _ ?_
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have h1 : (iblk2 V c 1 t : Vec Ideal S1024x1024 .bf16) (ix2 k q)
      = V c main_v2 (ix2 k ((((cfg2.win 3).blk t).view.emb (ix2 p q)) 1)) := by
    show V c main_v2 (((cfg2.win 1).blk t).view.emb (ix2 k q)) = V c main_v2 _
    refine congrArg _ ?_
    funext a; apply Fin.ext
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  rw [h0, h1]

/-- An index of the output array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- The 8 blocks of 512 rows cover the 4096 rows: row `r` is in the block of the point at block row `r / 512`. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, q0, q1⟩ := index_onto2 ⟨(i 0).val / 512, by omega⟩
  have q0' : win2_3.index t (0 : Fin 2) = (i 0).val / 512 := q0
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the region: the product of the first two arrays the region found plus the third as a row. -/
theorem final2 (c : Dev nD) : (dat2 V c).arrAt 3 cfg2.N = affine2 (V c main_v4) (V c main_v2) (V c main_v5) :=
  (dat2 V c).arrAt_eq_of_cover 3 (affine2 (V c main_v4) (V c main_v2) (V c main_v5)) (fun t _ => flushed2_eq V c t) cover2

/-- That array at (r, e), as the sum plus the bias. -/
theorem affine2_apply (a0 : S4096x1024.Idx → EReal) (a1 : S1024x1024.Idx → EReal) (a2 : S1x1024.Idx → EReal)
    (r : Fin 4096) (e : Fin 1024) :
    affine2 a0 a1 a2 (ix2 r e) = (∑ k : Fin 1024, a0 (ix2 r k) * a1 (ix2 k e)) + a2 (ix2 0 e) := rfl

/-- Entry (r, e) of the output array after the region: row `r` of the first array against column `e` of the second,
    plus the third's entry at column `e`. -/
theorem arr2_eq (c : Dev nD) (r : Fin 4096) (e : Fin 1024) :
    (Hand.dat2 (F := Ideal) V c).arrAt 3 cfg2.N (ix2 r e)
      = Cert.Spec.projBias (fun r k => V c main_v4 (ix2 r k)) (fun k e => V c main_v2 (ix2 k e)) (fun e => V c main_v5 (ix2 0 e)) r e :=
  congrFun (final2 V c) (ix2 r e)

end Cert.KernelIdeal.Val

end
-- ==== Proof.Compose.lean ====
/-
  The program's result as one function of its four arguments. Between the items of the main function the buffers hold:
  the input reshaped to 4096 rows and the two weight matrices (unchanged at the extended reals by the change of format);
  region 0's output, the projected array; region 1's output, the attention array; the bias as one row; region 2's
  output; and the result, region 2's output reshaped to two batches of 2048 tokens. Each region's output array is given
  as a function of the arrays the region is entered with (the three hypotheses); a buffer no item in between writes keeps
  its contents; a reshape keeps the row-major position. Composing them, the result at batch b, token s, column e is the
  specification's function of the arguments there.
-/
import proofs.«155993_j2439541424406_2_alg».proof.Proof.KI.Bounds
import proofs.«155993_j2439541424406_2_alg».proof.Proof.Spec2
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

namespace Compose

variable (m : (ℓ : Loc nD τ sig) → Buf (Elt Ideal) ℓ) (c : Dev nD)

/-! ## The host operations' results -/

/-- The result is the last region's output array, reshaped. -/
theorem B6_v7 : (Hand.B6 m c main_v7 : S2x2048x1024.Idx → EReal)
    = shapeCast S2x2048x1024 (Hand.B5 m c main_v6 : S4096x1024.Idx → EReal) shapeCasts_S4096x1024_S2x2048x1024 := by
  show StableHlo.after hostOps3 (Hand.B5 m c) (Proc.devRef .tc main_v7) = _
  after_results
  rfl

/-- The bias row is the bias vector, reshaped. -/
theorem B4_v5 : (Hand.B4 m c main_v5 : S1x1024.Idx → EReal)
    = shapeCast S1x1024 (Hand.B3 m c main_arg3 : S1024.Idx → EReal) shapeCasts_S1024_S1x1024 := by
  show StableHlo.after hostOps2 (Hand.B3 m c) (Proc.devRef .tc main_v5) = _
  after_results
  rfl

/-- The flattened input is the input, reshaped. -/
theorem B1_v0 : (Hand.B1 m c main_v0 : S4096x1024.Idx → EReal)
    = shapeCast S4096x1024 (m ((c : Thread nD τ).loc main_arg0) : S2x2048x1024.Idx → EReal) shapeCasts_S2x2048x1024_S4096x1024 := by
  show StableHlo.after hostOps0 (Hand.B0 m c) (Proc.devRef .tc main_v0) = _
  after_results
  rfl

/-- The first weight matrix: the change of format is the identity at the extended reals. -/
theorem B1_v1 : (Hand.B1 m c main_v1 : S1024x3072.Idx → EReal) = (m ((c : Thread nD τ).loc main_arg1) : S1024x3072.Idx → EReal) := by
  show StableHlo.after hostOps0 (Hand.B0 m c) (Proc.devRef .tc main_v1) = _
  after_results
  rfl

/-- The second weight matrix likewise. -/
theorem B1_v2 : (Hand.B1 m c main_v2 : S1024x1024.Idx → EReal) = (m ((c : Thread nD τ).loc main_arg2) : S1024x1024.Idx → EReal) := by
  show StableHlo.after hostOps0 (Hand.B0 m c) (Proc.devRef .tc main_v2) = _
  after_results
  rfl

/-! ## What is read where no item in between has written -/

/-- Region 2 finds the attention array as region 1 left it. -/
theorem B4_v4 : (Hand.B4 m c main_v4 : S4096x1024.Idx → EReal) = (Hand.dat1 (Hand.T2 m) c).arrAt 3 cfg1.N :=
  (StableHlo.after_of_writes_sub hostOps2 _ hostOps2_writes (by decide)).trans (Hand.B3_out m c)

/-- Region 2 finds the second weight matrix as the first host operations left it. -/
theorem B4_v2 : (Hand.B4 m c main_v2 : S1024x1024.Idx → EReal) = (m ((c : Thread nD τ).loc main_arg2) : S1024x1024.Idx → EReal) :=
  (StableHlo.after_of_writes_sub hostOps2 _ hostOps2_writes (by decide)).trans
    ((Hand.B3_of_ne m c main_v2 (by decide)).trans ((Hand.B2_of_ne m c main_v2 (by decide)).trans (B1_v2 m c)))

/-- The bias argument is never written. -/
theorem B3_arg3 : (Hand.B3 m c main_arg3 : S1024.Idx → EReal) = (m ((c : Thread nD τ).loc main_arg3) : S1024.Idx → EReal) :=
  (Hand.B3_of_ne m c main_arg3 (by decide)).trans ((Hand.B2_of_ne m c main_arg3 (by decide)).trans
    (StableHlo.after_of_writes_sub hostOps0 _ hostOps0_writes (by decide)))

/-- Region 2's output array at its exit. -/
theorem B5_v6 : (Hand.B5 m c main_v6 : S4096x1024.Idx → EReal) = (Hand.dat2 (Hand.T4 m) c).arrAt 3 cfg2.N :=
  Hand.B5_arr m c 3

/-- Region 0's output array at its exit. -/
theorem B2_v3 : (Hand.B2 m c main_v3 : S4096x3072.Idx → EReal) = (Hand.dat0 (Hand.T1 m) c).arrAt 2 cfg0.N :=
  Hand.B2_arr m c 2

/-! ## The same facts at an index -/

/-- The result at batch `b`, token `s`, column `e` is the last region's output at row `2048 b + s`. -/
theorem out_at (b : Fin 2) (s : Fin 2048) (e : Fin 1024) :
    Hand.B6 m c main_v7 (ix3 b s e) = Hand.B5 m c main_v6 (ix2 (Cert.Spec.row b s) e) :=
  (congrFun (B6_v7 m c) (ix3 b s e)).trans (shapeCast_apply (s := S4096x1024) (t := S2x2048x1024) _ _ (ix3 b s e) (ix2 (Cert.Spec.row b s) e) (by
    rw [Shape.rowMajor_val_three, Shape.rowMajor_val_two]
    show (2048 * b.val + s.val) * 1024 + e.val = (b.val * 2048 + s.val) * 1024 + e.val
    omega))

theorem v6_at (r : Fin 4096) (e : Fin 1024) :
    Hand.B5 m c main_v6 (ix2 r e) = (Hand.dat2 (Hand.T4 m) c).arrAt 3 cfg2.N (ix2 r e) :=
  congrFun (B5_v6 m c) (ix2 r e)

theorem v4_at (r : Fin 4096) (k : Fin 1024) :
    Hand.T4 m c main_v4 (ix2 r k) = (Hand.dat1 (Hand.T2 m) c).arrAt 3 cfg1.N (ix2 r k) :=
  congrFun (B4_v4 m c) (ix2 r k)

theorem v2_at (k : Fin 1024) (e : Fin 1024) :
    Hand.T4 m c main_v2 (ix2 k e) = m ((c : Thread nD τ).loc main_arg2) (ix2 k e) :=
  congrFun (B4_v2 m c) (ix2 k e)

/-- The bias row is the bias vector. -/
theorem v5_at (e : Fin 1024) :
    Hand.T4 m c main_v5 (ix2 (0 : Fin 1) e) = m ((c : Thread nD τ).loc main_arg3) (ix1 e) :=
  (congrFun (B4_v5 m c) (ix2 (0 : Fin 1) e)).trans ((shapeCast_apply (s := S1024) (t := S1x1024) _ _ (ix2 (0 : Fin 1) e) (ix1 e) (by
    rw [Shape.rowMajor_val_one, Shape.rowMajor_val_two]
    show e.val = 0 * 1024 + e.val
    omega)).trans (congrFun (B3_arg3 m c) (ix1 e)))

theorem v3_at (r : Fin 4096) (j : Fin 3072) :
    Hand.T2 m c main_v3 (ix2 r j) = (Hand.dat0 (Hand.T1 m) c).arrAt 2 cfg0.N (ix2 r j) :=
  congrFun (B2_v3 m c) (ix2 r j)

/-- Row `r` of the flattened input is token `r % 2048` of batch `r / 2048`. -/
theorem v0_at (r : Fin 4096) (k : Fin 1024) :
    Hand.T1 m c main_v0 (ix2 r k)
      = m ((c : Thread nD τ).loc main_arg0) (ix3 ⟨r.val / 2048, by omega⟩ ⟨r.val % 2048, by omega⟩ k) :=
  (congrFun (B1_v0 m c) (ix2 r k)).trans (shapeCast_apply (s := S2x2048x1024) (t := S4096x1024) _ _ (ix2 r k)
    (ix3 ⟨r.val / 2048, by omega⟩ ⟨r.val % 2048, by omega⟩ k) (by
    rw [Shape.rowMajor_val_three, Shape.rowMajor_val_two]
    show (r.val / 2048 * 2048 + r.val % 2048) * 1024 + k.val = r.val * 1024 + k.val
    omega))

theorem v1_at (k : Fin 1024) (j : Fin 3072) :
    Hand.T1 m c main_v1 (ix2 k j) = m ((c : Thread nD τ).loc main_arg1) (ix2 k j) :=
  congrFun (B1_v1 m c) (ix2 k j)

end Compose

open Compose

variable (m : (ℓ : Loc nD τ sig) → Buf (Elt Ideal) ℓ) (c : Dev nD)

/-- The result at batch `b`, token `s`, column `e`, from the three regions' output arrays (`h0`, `h1`, `h2`: each
    region's output as a function of the contents it is entered with). -/
theorem result_eq
    (h0 : ∀ (V : (c : Dev nD) → (b : Ref sig .tc) → Buf (Elt Ideal) ((c : Thread nD τ).loc b)) (c : Dev nD) (r : Fin 4096) (e : Fin 3072),
      (Hand.dat0 (F := Ideal) V c).arrAt 2 cfg0.N (ix2 r e)
        = Cert.Spec.proj (fun r k => V c main_v0 (ix2 r k)) (fun k e => V c main_v1 (ix2 k e)) r e)
    (h1 : ∀ (V : (c : Dev nD) → (b : Ref sig .tc) → Buf (Elt Ideal) ((c : Thread nD τ).loc b)) (c : Dev nD) (b : Fin 2) (s : Fin 2048) (h : Fin 16) (d : Fin 64),
      (Hand.dat1 (F := Ideal) V c).arrAt 3 cfg1.N (ix2 (Cert.Spec.row b s) (Cert.Spec.hcol h d))
        = Cert.Spec.attn (fun (r : Fin 4096) (e : Fin 3072) => V c main_v3 (ix2 r e)) b h s d)
    (h2 : ∀ (V : (c : Dev nD) → (b : Ref sig .tc) → Buf (Elt Ideal) ((c : Thread nD τ).loc b)) (c : Dev nD) (r : Fin 4096) (e : Fin 1024),
      (Hand.dat2 (F := Ideal) V c).arrAt 3 cfg2.N (ix2 r e)
        = Cert.Spec.projBias (fun r k => V c main_v4 (ix2 r k)) (fun k e => V c main_v2 (ix2 k e)) (fun e => V c main_v5 (ix2 0 e)) r e)
    (b : Fin 2) (s : Fin 2048) (e : Fin 1024) :
    Hand.B6 m c main_v7 (ix3 b s e)
      = Cert.Spec.result (fun r k => m ((c : Thread nD τ).loc main_arg0) (ix3 ⟨r.val / 2048, by omega⟩ ⟨r.val % 2048, by omega⟩ k))
          (fun k j => m ((c : Thread nD τ).loc main_arg1) (ix2 k j))
          (fun k j => m ((c : Thread nD τ).loc main_arg2) (ix2 k j))
          (fun j => m ((c : Thread nD τ).loc main_arg3) (ix1 j)) b s e := by
  -- the projected array as region 1 finds it: region 0's output over the reshaped input and the weights
  have hQ : Cert.Spec.proj (fun r k => m ((c : Thread nD τ).loc main_arg0) (ix3 ⟨r.val / 2048, by omega⟩ ⟨r.val % 2048, by omega⟩ k))
        (fun k j => m ((c : Thread nD τ).loc main_arg1) (ix2 k j))
      = fun (r : Fin 4096) (j : Fin 3072) => Hand.T2 m c main_v3 (ix2 r j) :=
    funext fun r => funext fun j => Eq.symm (by
      refine (v3_at m c r j).trans ((h0 (Hand.T1 m) c r j).trans ?_)
      show @Eq EReal _ _
      unfold Cert.Spec.proj
      exact Finset.sum_congr rfl fun k _ => congrArg₂ (fun x y : EReal => x * y) (v0_at m c r k) (v1_at m c k j))
  rw [Cert.Spec.result_eq_projBias]
  refine (out_at m c b s e).trans ((v6_at m c (Cert.Spec.row b s) e).trans ((h2 (Hand.T4 m) c (Cert.Spec.row b s) e).trans ?_))
  show @Eq EReal _ _
  unfold Cert.Spec.projBias Cert.Spec.proj
  refine congrArg₂ (fun x y : EReal => x + y)
    (Finset.sum_congr rfl fun k _ => congrArg₂ (fun x y : EReal => x * y) ?_ (v2_at m c k e)) (v5_at m c e)
  -- column k of the attention output is head k / 64, column k % 64
  refine (v4_at m c (Cert.Spec.row b s) k).trans ?_
  refine (congrArg (fun k' : Fin 1024 => (Hand.dat1 (Hand.T2 m) c).arrAt 3 cfg1.N (ix2 (Cert.Spec.row b s) k'))
    (Cert.Spec.hcol_div_mod k).symm).trans ?_
  refine (h1 (Hand.T2 m) c b s ⟨k.val / 64, by omega⟩ ⟨k.val % 64, by omega⟩).trans ?_
  exact congrArg (fun Q => Cert.Spec.attn Q b ⟨k.val / 64, by omega⟩ s ⟨k.val % 64, by omega⟩) hQ.symm

end Cert.KernelIdeal.Val

end
-- ==== Proof.RefAlg.lean ====
/-
  Extended-real algebra behind the reference's softmax, over finite reals.

  * the three binary words the reference spells: 64, 1/8 and minus infinity; the square root of 64 is 8, so dividing
    by it is multiplying by 1/8;
  * sums, products and differences of reals are reals; a maximum folded from minus infinity over a nonempty finite
    family of reals is a real; the exponential of a real is a positive real;
  * dividing each weight by the weights' sum and then summing against the values is the weighted sum divided by the
    weights' sum, when the weights are positive reals and the values are reals.
-/
import proofs.«155993_j2439541424406_2_alg».proof.Proof.Spec
import Idealize.ShloMosaic.PureOps.Ideal

noncomputable section

namespace Cert.RefSide

open Idealize.ShloMosaic

/-! ## The binary words -/

/-- The word 0x42800000 is 64. -/
theorem ofBits_sixtyfour : Ideal.ofBits .f32 0x42800000#32 = ((64 : ℝ) : EReal) := by
  simp [Ideal.ofBits, Ideal.ieee, -EReal.coe_mul]; norm_num

/-- The word 0x3E000000 is 1/8. -/
theorem eighth_eq : Cert.Spec.eighth = ((1 / 8 : ℝ) : EReal) := by
  simp [Cert.Spec.eighth, Ideal.ofBits, Ideal.ieee, -EReal.coe_mul]; norm_num

/-- The word 0xFF800000 is minus infinity. -/
theorem negInf_eq : Cert.Spec.negInf = (⊥ : EReal) := by
  simp [Cert.Spec.negInf, Ideal.ofBits, Ideal.ieee]

/-- The square root of 64 is 8. -/
theorem sqrt_sixtyfour : Ideal.sqrt ((64 : ℝ) : EReal) = ((8 : ℝ) : EReal) := by
  have h : Real.sqrt 64 = 8 := by
    rw [show (64 : ℝ) = 8 * 8 by norm_num, Real.sqrt_mul_self (by norm_num)]
  rw [Ideal.sqrt_coe, if_neg (by norm_num), h]

/-- Dividing by the square root of the word 64 is multiplying by the word 1/8. -/
theorem div_sqrt_sixtyfour (x : EReal) :
    Ideal.div x (Ideal.sqrt (Ideal.ofBits .f32 0x42800000#32)) = x * Cert.Spec.eighth := by
  rw [ofBits_sixtyfour, sqrt_sixtyfour, Ideal.div_coe (by norm_num : (8 : ℝ) ≠ 0), eighth_eq]

/-! ## Reals among the extended reals -/

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The coercion commutes with a finite sum. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem eighth_isReal : IsReal Cert.Spec.eighth := ⟨1 / 8, eighth_eq⟩

/-- A maximum folded from minus infinity over a nonempty finite family of reals is a real. -/
theorem fold_max_isReal {K : Type} [Fintype K] [Nonempty K] (f : K → EReal) (hf : ∀ k, IsReal (f k)) :
    IsReal ((Finset.univ : Finset K).fold max (⊥ : EReal) f) := by
  have hbot : (Finset.univ : Finset K).fold max (⊥ : EReal) f ≠ ⊥ := by
    obtain ⟨k0⟩ := (inferInstance : Nonempty K)
    obtain ⟨r, hr⟩ := hf k0
    have hle : f k0 ≤ (Finset.univ : Finset K).fold max (⊥ : EReal) f :=
      (Finset.le_fold_max _).mpr (Or.inr ⟨k0, Finset.mem_univ _, le_refl _⟩)
    intro hb
    rw [hb, hr] at hle
    exact absurd (le_bot_iff.mp hle) (EReal.coe_ne_bot r)
  have htop : (Finset.univ : Finset K).fold max (⊥ : EReal) f ≠ ⊤ := by
    refine ne_of_lt ((Finset.fold_max_lt _).mpr ⟨bot_lt_top, fun k _ => ?_⟩)
    obtain ⟨r, hr⟩ := hf k
    rw [hr]; exact EReal.coe_lt_top r
  exact ⟨_, (EReal.coe_toReal htop hbot).symm⟩

/-- The exponential of a difference of reals is a positive real. -/
theorem exp_sub_pos {x y : EReal} (hx : IsReal x) (hy : IsReal y) : ∃ r : ℝ, 0 < r ∧ Ideal.exp (x - y) = (r : EReal) := by
  obtain ⟨a, rfl⟩ := hx; obtain ⟨b, rfl⟩ := hy
  exact ⟨Real.exp (a - b), Real.exp_pos _, by rw [← EReal.coe_sub]; rfl⟩

/-! ## The softmax's weighted sum -/

/-- Weights that are positive reals, each divided by zero plus their sum, summed against real values: the weighted sum
    divided by the weights' sum. -/
theorem sum_div_mul {K : Type} [Fintype K] [Nonempty K] (p v : K → EReal)
    (hp : ∀ k, ∃ r : ℝ, 0 < r ∧ p k = (r : EReal)) (hv : ∀ k, IsReal (v k)) :
    ∑ k, Ideal.div (p k) (0 + ∑ k', p k') * v k = Ideal.div (∑ k, p k * v k) (∑ k, p k) := by
  choose pr hpos hpr using hp
  choose vr hvr using hv
  have hL : (0 : ℝ) < ∑ k, pr k := Finset.sum_pos (fun k _ => hpos k) Finset.univ_nonempty
  have hsum : ∑ k, p k = ((∑ k, pr k : ℝ) : EReal) := by
    rw [coe_sum]; exact Finset.sum_congr rfl fun k _ => hpr k
  rw [zero_add, hsum]
  simp only [Ideal.div_coe (ne_of_gt hL)]
  have hl : ∀ k, p k * ((1 / ∑ k, pr k : ℝ) : EReal) * v k = ((pr k * (1 / ∑ k, pr k) * vr k : ℝ) : EReal) := by
    intro k; rw [hpr k, hvr k, EReal.coe_mul, EReal.coe_mul]
  have hr : ∑ k, p k * v k = ((∑ k, pr k * vr k : ℝ) : EReal) := by
    rw [coe_sum]; exact Finset.sum_congr rfl fun k _ => by rw [hpr k, hvr k, EReal.coe_mul]
  rw [Finset.sum_congr rfl fun k _ => hl k, ← coe_sum, hr, ← EReal.coe_mul]
  congr 1
  rw [Finset.sum_mul]
  exact Finset.sum_congr rfl fun k _ => by ring

end Cert.RefSide

end
-- ==== Proof.RefSide.lean ====
/-
  The reference program read index by index at the ideal instance.

  The input projection gives the array `Q` of the specification (row 2048·b + s, column 1024·j + 64·h + d); the
  reshape, transpose and slices name its thirds and heads; the scores are the heads' inner products times 1/8, since
  dividing by the square root of 64 is multiplying by 1/8; the row maximum is folded from minus infinity; the
  exponentials, their sum from zero, and each exponential divided by that sum follow the specification's names.
-/
import proofs.«155993_j2439541424406_2_alg».proof.Proof.RefAlg
import proofs.«155993_j2439541424406_2_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

variable (x0 : (⟨S2x2048x1024, .f32⟩ : BufTy).Contents (Elt Ideal)) (x1 : (⟨S1024x3072, .f32⟩ : BufTy).Contents (Elt Ideal))

/-- The projected array of the specification, from the reference's two first arguments. -/
def Q : Fin 4096 → Fin 3072 → EReal :=
  Cert.Spec.proj (fun r k => x0 (ix3 ⟨r.val / 2048, by omega⟩ ⟨r.val % 2048, by omega⟩ k)) (fun k c => x1 (ix2 k c))

/-- Head `h` of batch `b`: the query rows, -/
def qf (b : Fin 2) (h : Fin 16) : Fin 2048 → Fin 64 → EReal := fun q d => Q x0 x1 (Cert.Spec.row b q) (Cert.Spec.col 0 h d)
/-- the key rows, -/
def kf (b : Fin 2) (h : Fin 16) : Fin 2048 → Fin 64 → EReal := fun k d => Q x0 x1 (Cert.Spec.row b k) (Cert.Spec.col 1 h d)
/-- and the value rows. -/
def vf (b : Fin 2) (h : Fin 16) : Fin 2048 → Fin 64 → EReal := fun k d => Q x0 x1 (Cert.Spec.row b k) (Cert.Spec.col 2 h d)

/-! ## The projection and its thirds and heads -/

/-- The projection at batch `b`, token `s`, column `c`. -/
theorem v0_at (b : Fin 2) (s : Fin 2048) (c : Fin 3072) :
    val_main_v0 (F := Ideal) x0 x1 (ix3 b s c) = Q x0 x1 (Cert.Spec.row b s) c := by
  rw [val_main_v0_apply]
  unfold Q Cert.Spec.proj
  refine Finset.sum_congr rfl fun k _ => ?_
  have e0 : lidx_main_v0 (ix3 b s c) k
      = ix3 (⟨(Cert.Spec.row b s).val / 2048, by have := (Cert.Spec.row b s).isLt; omega⟩ : Fin 2)
          (⟨(Cert.Spec.row b s).val % 2048, by omega⟩ : Fin 2048) k :=
    funext fun a => Fin.ext (by
      match a with
      | ⟨0, _⟩ => show b.val = (2048 * b.val + s.val) / 2048; omega
      | ⟨1, _⟩ => show s.val = (2048 * b.val + s.val) % 2048; omega
      | ⟨2, _⟩ => rfl)
  have e1 : ridx_main_v0 (ix3 b s c) k = ix2 k c :=
    funext fun a => Fin.ext (by
      match a with
      | ⟨0, _⟩ => rfl
      | ⟨1, _⟩ => rfl)
  rw [e0, e1]

theorem idx1 (b : Fin 2) (s : Fin 2048) (j : Fin 3) (h : Fin 16) (d : Fin 64) :
    idx_main_v1 (ix5 b s j h d) = ix3 b s (Cert.Spec.col j h d) :=
  funext fun a => Fin.ext (by
    match a with
    | ⟨0, _⟩ => show ((((b.val * 2048 + s.val) * 3 + j.val) * 16 + h.val) * 64 + d.val) / 6291456 = b.val; omega
    | ⟨1, _⟩ => show ((((b.val * 2048 + s.val) * 3 + j.val) * 16 + h.val) * 64 + d.val) / 3072 % 2048 = s.val; omega
    | ⟨2, _⟩ => show ((((b.val * 2048 + s.val) * 3 + j.val) * 16 + h.val) * 64 + d.val) % 3072 = 1024 * j.val + 64 * h.val + d.val; omega)

theorem idx2 (j : Fin 3) (b : Fin 2) (h : Fin 16) (s : Fin 2048) (d : Fin 64) :
    idx_main_v2 (ix5 j b h s d) = ix5 b s j h d :=
  funext fun a => Fin.ext (by
    match a with
    | ⟨0, _⟩ => rfl
    | ⟨1, _⟩ => rfl
    | ⟨2, _⟩ => rfl
    | ⟨3, _⟩ => rfl
    | ⟨4, _⟩ => rfl)

/-- The transposed array at third `j`, batch `b`, head `h`, token `s`, column `d`. -/
theorem v2_at (j : Fin 3) (b : Fin 2) (h : Fin 16) (s : Fin 2048) (d : Fin 64) :
    val_main_v2 (F := Ideal) x0 x1 (ix5 j b h s d) = Q x0 x1 (Cert.Spec.row b s) (Cert.Spec.col j h d) := by
  rw [val_main_v2_apply, idx2, val_main_v1_apply, idx1, v0_at]

theorem idx3 (b : Fin 2) (h : Fin 16) (s : Fin 2048) (d : Fin 64) :
    idx_main_v3 (ix5 (0 : Fin 1) b h s d) = ix5 (0 : Fin 3) b h s d :=
  funext fun a => Fin.ext (by
    match a with
    | ⟨0, _⟩ => rfl
    | ⟨1, _⟩ => rfl
    | ⟨2, _⟩ => rfl
    | ⟨3, _⟩ => rfl
    | ⟨4, _⟩ => rfl)

theorem idx5 (b : Fin 2) (h : Fin 16) (s : Fin 2048) (d : Fin 64) :
    idx_main_v5 (ix5 (0 : Fin 1) b h s d) = ix5 (1 : Fin 3) b h s d :=
  funext fun a => Fin.ext (by
    match a with
    | ⟨0, _⟩ => rfl
    | ⟨1, _⟩ => rfl
    | ⟨2, _⟩ => rfl
    | ⟨3, _⟩ => rfl
    | ⟨4, _⟩ => rfl)

theorem idx7 (b : Fin 2) (h : Fin 16) (s : Fin 2048) (d : Fin 64) :
    idx_main_v7 (ix5 (0 : Fin 1) b h s d) = ix5 (2 : Fin 3) b h s d :=
  funext fun a => Fin.ext (by
    match a with
    | ⟨0, _⟩ => rfl
    | ⟨1, _⟩ => rfl
    | ⟨2, _⟩ => rfl
    | ⟨3, _⟩ => rfl
    | ⟨4, _⟩ => rfl)

theorem idx4 (b : Fin 2) (h : Fin 16) (s : Fin 2048) (d : Fin 64) :
    idx_main_v4 (ix4 b h s d) = ix5 (0 : Fin 1) b h s d :=
  funext fun a => Fin.ext (by
    match a with
    | ⟨0, _⟩ => rfl
    | ⟨1, _⟩ => show (((b.val * 16 + h.val) * 2048 + s.val) * 64 + d.val) / 2097152 % 2 = b.val; omega
    | ⟨2, _⟩ => show (((b.val * 16 + h.val) * 2048 + s.val) * 64 + d.val) / 131072 % 16 = h.val; omega
    | ⟨3, _⟩ => show (((b.val * 16 + h.val) * 2048 + s.val) * 64 + d.val) / 64 % 2048 = s.val; omega
    | ⟨4, _⟩ => show (((b.val * 16 + h.val) * 2048 + s.val) * 64 + d.val) % 64 = d.val; omega)

theorem idx6 (b : Fin 2) (h : Fin 16) (s : Fin 2048) (d : Fin 64) :
    idx_main_v6 (ix4 b h s d) = ix5 (0 : Fin 1) b h s d := idx4 b h s d

theorem idx8 (b : Fin 2) (h : Fin 16) (s : Fin 2048) (d : Fin 64) :
    idx_main_v8 (ix4 b h s d) = ix5 (0 : Fin 1) b h s d := idx4 b h s d

/-- The queries, -/
theorem v4_at (b : Fin 2) (h : Fin 16) (s : Fin 2048) (d : Fin 64) :
    val_main_v4 (F := Ideal) x0 x1 (ix4 b h s d) = qf x0 x1 b h s d := by
  rw [val_main_v4_apply, idx4, val_main_v3_apply, idx3, v2_at]; rfl
/-- the keys, -/
theorem v6_at (b : Fin 2) (h : Fin 16) (s : Fin 2048) (d : Fin 64) :
    val_main_v6 (F := Ideal) x0 x1 (ix4 b h s d) = kf x0 x1 b h s d := by
  rw [val_main_v6_apply, idx6, val_main_v5_apply, idx5, v2_at]; rfl
/-- and the values of head `h`. -/
theorem v8_at (b : Fin 2) (h : Fin 16) (s : Fin 2048) (d : Fin 64) :
    val_main_v8 (F := Ideal) x0 x1 (ix4 b h s d) = vf x0 x1 b h s d := by
  rw [val_main_v8_apply, idx8, val_main_v7_apply, idx7, v2_at]; rfl

/-! ## Scores, row maximum, exponentials -/

theorem lidx9 (b : Fin 2) (h : Fin 16) (s k : Fin 2048) (d : Fin 64) :
    lidx_main_v9 (ix4 b h s k) d = ix4 b h s d :=
  funext fun a => Fin.ext (by
    match a with
    | ⟨0, _⟩ => rfl
    | ⟨1, _⟩ => rfl
    | ⟨2, _⟩ => rfl
    | ⟨3, _⟩ => rfl)

theorem ridx9 (b : Fin 2) (h : Fin 16) (s k : Fin 2048) (d : Fin 64) :
    ridx_main_v9 (ix4 b h s k) d = ix4 b h k d :=
  funext fun a => Fin.ext (by
    match a with
    | ⟨0, _⟩ => rfl
    | ⟨1, _⟩ => rfl
    | ⟨2, _⟩ => rfl
    | ⟨3, _⟩ => rfl)

/-- The scaled score of query row `s` against key row `k`. -/
theorem v12_at (b : Fin 2) (h : Fin 16) (s k : Fin 2048) :
    val_main_v12 (F := Ideal) x0 x1 (ix4 b h s k) = Cert.Spec.score (qf x0 x1 b h) (kf x0 x1 b h) s k := by
  rw [val_main_v12_apply, Ideal.hostDivf_def, val_main_v11_apply, val_main_v10_apply, Ideal.hostUnary_sqrt_def,
    val_main_cst_apply, Ideal.ofBits_def, div_sqrt_sixtyfour, val_main_v9_apply]
  unfold Cert.Spec.score
  refine congrArg (· * Cert.Spec.eighth) (Finset.sum_congr rfl fun d _ => ?_)
  rw [lidx9, ridx9, v4_at, v6_at]

/-- The index over `(b, h, s)` with `k` inserted on the reduced axis. -/
theorem lift13 (hred : Shape.Reduces S2x16x2048x2048 [3] S2x16x2048) (b : Fin 2) (h : Fin 16) (s k : Fin 2048) :
    hred.lift (ix3 b h s) k = ix4 b h s k :=
  funext fun c => Fin.ext (by
    match c with
    | ⟨0, _⟩ => rfl
    | ⟨1, _⟩ => rfl
    | ⟨2, _⟩ => rfl
    | ⟨3, _⟩ => rfl)

/-- The row maximum, folded from minus infinity. -/
theorem v13_at (b : Fin 2) (h : Fin 16) (s : Fin 2048) :
    val_main_v13 (F := Ideal) x0 x1 (ix3 b h s) = Cert.Spec.rowMax (Cert.Spec.score (qf x0 x1 b h) (kf x0 x1 b h) s) := by
  have hred : Shape.Reduces S2x16x2048x2048 [3] S2x16x2048 := by decide
  unfold val_main_v13
  rw [Host.reduce_eq_fold_single _ _ _ _ hred]
  unfold Cert.Spec.rowMax
  refine Finset.fold_congr fun k _ => ?_
  exact (congrArg (val_main_v12 (F := Ideal) x0 x1) (lift13 hred b h s k)).trans (v12_at x0 x1 b h s k)

/-- The maximum with minus infinity is the row maximum. -/
theorem v15_at (b : Fin 2) (h : Fin 16) (s : Fin 2048) :
    val_main_v15 (F := Ideal) x0 x1 (ix3 b h s) = Cert.Spec.rowMax (Cert.Spec.score (qf x0 x1 b h) (kf x0 x1 b h) s) := by
  rw [val_main_v15_apply, Ideal.maximumf_def, val_main_v14_apply, val_main_cst_1_apply, Ideal.ofBits_def, v13_at,
    show Ideal.ofBits .f32 0xFF800000#32 = (⊥ : EReal) from negInf_eq]
  exact max_bot_left _

theorem idx17 (b : Fin 2) (h : Fin 16) (s k : Fin 2048) :
    idx_main_v17 (ix4 b h s k) = ix4 b h s (0 : Fin 1) :=
  funext fun a => Fin.ext (by
    match a with
    | ⟨0, _⟩ => rfl
    | ⟨1, _⟩ => rfl
    | ⟨2, _⟩ => rfl
    | ⟨3, _⟩ => rfl)

theorem idx16 (b : Fin 2) (h : Fin 16) (s : Fin 2048) :
    idx_main_v16 (ix4 b h s (0 : Fin 1)) = ix3 b h s :=
  funext fun a => Fin.ext (by
    match a with
    | ⟨0, _⟩ => rfl
    | ⟨1, _⟩ => rfl
    | ⟨2, _⟩ => rfl)

/-- The exponential of a score less its row's maximum. -/
theorem v19_at (b : Fin 2) (h : Fin 16) (s k : Fin 2048) :
    val_main_v19 (F := Ideal) x0 x1 (ix4 b h s k) = Cert.Spec.expRow (qf x0 x1 b h) (kf x0 x1 b h) s k := by
  rw [val_main_v19_apply, Ideal.hostUnary_exp_def, val_main_v18_apply, Ideal.subf_def, v12_at, val_main_v17_apply, idx17,
    val_main_v16_apply, idx16, v15_at]
  rfl

theorem idx20 (b : Fin 2) (h : Fin 16) (s k : Fin 2048) :
    idx_main_v20 (ix3 b h s) k = ix4 b h s k :=
  funext fun a => Fin.ext (by
    match a with
    | ⟨0, _⟩ => rfl
    | ⟨1, _⟩ => rfl
    | ⟨2, _⟩ => rfl
    | ⟨3, _⟩ => rfl)

/-- The exponentials' sum, from zero. -/
theorem v20_at (b : Fin 2) (h : Fin 16) (s : Fin 2048) :
    val_main_v20 (F := Ideal) x0 x1 (ix3 b h s) = 0 + ∑ k : Fin 2048, Cert.Spec.expRow (qf x0 x1 b h) (kf x0 x1 b h) s k := by
  rw [val_main_v20_apply, val_main_cst_2_apply, Ideal.ofBits_def, Ideal.ofBits_zero_f32]
  refine congrArg (0 + ·) (Finset.sum_congr rfl fun k _ => ?_)
  rw [idx20, v19_at]

theorem idx22 (b : Fin 2) (h : Fin 16) (s k : Fin 2048) :
    idx_main_v22 (ix4 b h s k) = ix4 b h s (0 : Fin 1) := idx17 b h s k

theorem idx21 (b : Fin 2) (h : Fin 16) (s : Fin 2048) :
    idx_main_v21 (ix4 b h s (0 : Fin 1)) = ix3 b h s := idx16 b h s

/-- Each exponential divided by the sum. -/
theorem v23_at (b : Fin 2) (h : Fin 16) (s k : Fin 2048) :
    val_main_v23 (F := Ideal) x0 x1 (ix4 b h s k)
      = Ideal.div (Cert.Spec.expRow (qf x0 x1 b h) (kf x0 x1 b h) s k)
          (0 + ∑ k' : Fin 2048, Cert.Spec.expRow (qf x0 x1 b h) (kf x0 x1 b h) s k') := by
  rw [val_main_v23_apply, Ideal.hostDivf_def, v19_at, val_main_v22_apply, idx22, val_main_v21_apply, idx21, v20_at]

theorem lidx24 (b : Fin 2) (h : Fin 16) (s : Fin 2048) (d : Fin 64) (k : Fin 2048) :
    lidx_main_v24 (ix4 b h s d) k = ix4 b h s k :=
  funext fun a => Fin.ext (by
    match a with
    | ⟨0, _⟩ => rfl
    | ⟨1, _⟩ => rfl
    | ⟨2, _⟩ => rfl
    | ⟨3, _⟩ => rfl)

theorem ridx24 (b : Fin 2) (h : Fin 16) (s : Fin 2048) (d : Fin 64) (k : Fin 2048) :
    ridx_main_v24 (ix4 b h s d) k = ix4 b h k d :=
  funext fun a => Fin.ext (by
    match a with
    | ⟨0, _⟩ => rfl
    | ⟨1, _⟩ => rfl
    | ⟨2, _⟩ => rfl
    | ⟨3, _⟩ => rfl)

/-- The quotients' weighted sum of the value rows, before any finiteness is used. -/
theorem v24_at (b : Fin 2) (h : Fin 16) (s : Fin 2048) (d : Fin 64) :
    val_main_v24 (F := Ideal) x0 x1 (ix4 b h s d)
      = ∑ k : Fin 2048, Ideal.div (Cert.Spec.expRow (qf x0 x1 b h) (kf x0 x1 b h) s k)
          (0 + ∑ k' : Fin 2048, Cert.Spec.expRow (qf x0 x1 b h) (kf x0 x1 b h) s k') * vf x0 x1 b h k d := by
  rw [val_main_v24_apply]
  refine Finset.sum_congr rfl fun k _ => ?_
  rw [lidx24, ridx24, v23_at, v8_at]

/-! ## The way back: transpose and reshape to [2, 2048, 1024] -/

theorem idx26 (b : Fin 2) (s : Fin 2048) (k : Fin 1024) :
    idx_main_v26 (ix3 b s k) = ix4 b s (⟨k.val / 64, by omega⟩ : Fin 16) (⟨k.val % 64, by omega⟩ : Fin 64) :=
  funext fun a => Fin.ext (by
    match a with
    | ⟨0, _⟩ => show ((b.val * 2048 + s.val) * 1024 + k.val) / 2097152 = b.val; omega
    | ⟨1, _⟩ => show ((b.val * 2048 + s.val) * 1024 + k.val) / 1024 % 2048 = s.val; omega
    | ⟨2, _⟩ => show ((b.val * 2048 + s.val) * 1024 + k.val) / 64 % 16 = k.val / 64; omega
    | ⟨3, _⟩ => show ((b.val * 2048 + s.val) * 1024 + k.val) % 64 = k.val % 64; omega)

theorem idx25 (b : Fin 2) (s : Fin 2048) (h : Fin 16) (d : Fin 64) :
    idx_main_v25 (ix4 b s h d) = ix4 b h s d :=
  funext fun a => Fin.ext (by
    match a with
    | ⟨0, _⟩ => rfl
    | ⟨1, _⟩ => rfl
    | ⟨2, _⟩ => rfl
    | ⟨3, _⟩ => rfl)

/-! ## Finiteness: every intermediate is a real when the arguments are -/

section Finite
variable (h0 : ∀ i, ∃ r : ℝ, x0 i = (r : EReal)) (h1 : ∀ i, ∃ r : ℝ, x1 i = (r : EReal))
include h0 h1

theorem Q_isReal (r : Fin 4096) (c : Fin 3072) : IsReal (Q x0 x1 r c) := by
  unfold Q Cert.Spec.proj
  exact IsReal.sum _ _ fun k => IsReal.mul (h0 _) (h1 _)

theorem score_isReal (b : Fin 2) (h : Fin 16) (s k : Fin 2048) :
    IsReal (Cert.Spec.score (qf x0 x1 b h) (kf x0 x1 b h) s k) := by
  unfold Cert.Spec.score
  exact IsReal.mul (IsReal.sum _ _ fun d => IsReal.mul (Q_isReal x0 x1 h0 h1 _ _) (Q_isReal x0 x1 h0 h1 _ _)) eighth_isReal

theorem rowMax_isReal (b : Fin 2) (h : Fin 16) (s : Fin 2048) :
    IsReal (Cert.Spec.rowMax (Cert.Spec.score (qf x0 x1 b h) (kf x0 x1 b h) s)) := by
  unfold Cert.Spec.rowMax
  rw [show Cert.Spec.negInf = (⊥ : EReal) from negInf_eq]
  exact fold_max_isReal _ fun k => score_isReal x0 x1 h0 h1 b h s k

theorem expRow_pos (b : Fin 2) (h : Fin 16) (s k : Fin 2048) :
    ∃ r : ℝ, 0 < r ∧ Cert.Spec.expRow (qf x0 x1 b h) (kf x0 x1 b h) s k = (r : EReal) := by
  unfold Cert.Spec.expRow
  exact exp_sub_pos (score_isReal x0 x1 h0 h1 b h s k) (rowMax_isReal x0 x1 h0 h1 b h s)

/-- The weighted sum is the specification's attention output: the division moves outside the sum. -/
theorem v24_attn (b : Fin 2) (h : Fin 16) (s : Fin 2048) (d : Fin 64) :
    val_main_v24 (F := Ideal) x0 x1 (ix4 b h s d) = Cert.Spec.attn (Q x0 x1) b h s d := by
  rw [v24_at]
  exact sum_div_mul (fun k => Cert.Spec.expRow (qf x0 x1 b h) (kf x0 x1 b h) s k) (fun k => vf x0 x1 b h k d)
    (fun k => expRow_pos x0 x1 h0 h1 b h s k) (fun k => Q_isReal x0 x1 h0 h1 _ _)

/-- The heads laid side by side again: column `k` is head `k / 64`, column `k % 64`. -/
theorem v26_at (b : Fin 2) (s : Fin 2048) (k : Fin 1024) :
    val_main_v26 (F := Ideal) x0 x1 (ix3 b s k)
      = Cert.Spec.attn (Q x0 x1) b (⟨k.val / 64, by omega⟩ : Fin 16) s (⟨k.val % 64, by omega⟩ : Fin 64) := by
  rw [val_main_v26_apply, idx26, val_main_v25_apply, idx25, v24_attn x0 x1 h0 h1]

end Finite

/-! ## The output projection and the bias -/

theorem lidx27 (b : Fin 2) (s : Fin 2048) (e k : Fin 1024) :
    lidx_main_v27 (ix3 b s e) k = ix3 b s k :=
  funext fun a => Fin.ext (by
    match a with
    | ⟨0, _⟩ => rfl
    | ⟨1, _⟩ => rfl
    | ⟨2, _⟩ => rfl)

theorem ridx27 (b : Fin 2) (s : Fin 2048) (e k : Fin 1024) :
    ridx_main_v27 (ix3 b s e) k = ix2 k e :=
  funext fun a => Fin.ext (by
    match a with
    | ⟨0, _⟩ => rfl
    | ⟨1, _⟩ => rfl)

theorem idx2829 (b : Fin 2) (s : Fin 2048) (e : Fin 1024) :
    idx_main_v28 (idx_main_v29 (ix3 b s e)) = ix1 e :=
  funext fun a => Fin.ext (by
    match a with
    | ⟨0, _⟩ => rfl)

/-- THE REFERENCE SIDE: on finite arguments the reference's result, index by index, is the specification's. -/
theorem ref_eq (x2 : (⟨S1024x1024, .f32⟩ : BufTy).Contents (Elt Ideal)) (x3 : (⟨S1024, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 2) (s : Fin 2048) (e : Fin 1024) :
    val_main_v30 (F := Ideal) x0 x1 x2 x3 (ix3 b s e)
      = Cert.Spec.result (fun r k => x0 (ix3 ⟨r.val / 2048, by omega⟩ ⟨r.val % 2048, by omega⟩ k)) (fun k c => x1 (ix2 k c))
          (fun k c => x2 (ix2 k c)) (fun c => x3 (ix1 c)) b s e := by
  rw [val_main_v30_apply, Ideal.addf_def, val_main_v29_apply, val_main_v28_apply, idx2829, val_main_v27_apply]
  unfold Cert.Spec.result
  refine congrArg (· + x3 (ix1 e)) (Finset.sum_congr rfl fun k _ => ?_)
  rw [lidx27, ridx27, v26_at x0 x1 h0 h1]
  rfl

end Cert.RefSide

end
-- ==== Proof.Finite.lean ====
/-
  Finiteness from the precondition. The printed predicate says, of each of the four float arguments, that
  |x| < +∞ at every entry (the comparison against the pattern 0x7F800000, which denotes +∞), all entries and all
  four arguments joined by `and`. At the ideal instance an entry is an extended real, and an extended real whose
  absolute value max x (-x) lies strictly below +∞ is neither -∞ nor +∞: it is a real number.
-/
import proofs.«155993_j2439541424406_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- An extended real whose absolute value `max x (-x)` is strictly below `⊤` is a real number:
    at `⊥` the maximum is `-⊥ = ⊤`, at `⊤` it is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern `0x7F800000` (exponent all ones, fraction zero, sign clear) denotes `+∞`. -/
theorem ofBits_inf : Ideal.ofBits .f32 0x7F800000#32 = (⊤ : EReal) := by
  simp [Ideal.ofBits, Ideal.ieee]

/-- The rank-0 shape has one index. -/
instance : Subsingleton Cert.Pre_finite_inputs.S_.Idx := ⟨fun a b => funext fun d => d.elim0⟩

/-- One argument's share of the predicate: if the `and` over all axes of `|x| < +∞` is 1, every entry of `x` is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have hi := Host.reduce_andi_all _ _ hr hu j h i
  apply real_of_abs_lt_top
  simp only [cmpf, Host.absf, broadcastInDim, constant, Ideal.hostAbsf_def, Ideal.cmpf_def, Ideal.absf_def,
    Ideal.ofBits_def, ofBits_inf, Ideal.cmp] at hi
  by_contra hn
  rw [decide_eq_false hn] at hi
  exact absurd hi (by decide)

/-- If the precondition holds (the predicate is all ones), every entry of every float argument is a real number. -/
theorem real_of_pre [Cert.Pre_finite_inputs.Facts]
    (a0 : FVec Ideal Cert.Pre_finite_inputs.S2x2048x1024 .f32) (a1 : FVec Ideal Cert.Pre_finite_inputs.S1024x3072 .f32)
    (a2 : FVec Ideal Cert.Pre_finite_inputs.S1024x1024 .f32) (a3 : FVec Ideal Cert.Pre_finite_inputs.S1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2, real_of_all a3 _ _ _ _ h3⟩

end Cert.Finite

end
-- ==== Proof.lean ====
/-
  Multi-head self-attention (batch 2, 2048 tokens, width 1024, 16 heads of width 64) as three Pallas kernels —
  the projection to queries, keys and values; per batch, pair of heads and block of 512 query rows, the
  max-subtracted softmax of the scaled scores applied to the values; the output projection plus bias — against
  the plain jnp reference, as extended reals.

  Both programs compute Cert.Spec.result of the four argument arrays. The kernel program's three regions each leave
  in their output array one function of the arrays they found (the projected array read by the second region
  through three windows of one array); composed through the host reshapes, the result is Spec.result. The
  reference divides the scores by the square root of 64 where the kernel multiplies by 1/8, and normalizes the
  exponentials before the weighted sum of the value rows where the kernel normalizes after it: over finite
  reals, with the exponentials' sum positive, these are equal, and the precondition makes every argument entry a
  finite real. The rounding to bf16 on the way into each matrix product is the identity on extended reals.

  The frames of the two kernel programs are one proof at a generic float instance, read at the word-level
  instance and at the ideal one: the main function as six segments (host operations and the three regions), each
  region's body run at every grid point, the argument arrays read back unchanged at the end. The reference's frame
  is its run with the result dropped.
-/
import proofs.«155993_j2439541424406_2_alg».proof.Defs
import proofs.«155993_j2439541424406_2_alg».proof.Proof.Gen.Kernel
import proofs.«155993_j2439541424406_2_alg».proof.Proof.Gen.KernelIdeal
import proofs.«155993_j2439541424406_2_alg».proof.Proof.Gen.ReferenceIdeal
import proofs.«155993_j2439541424406_2_alg».proof.Proof.Gen.ReferenceIdeal.Run
import proofs.«155993_j2439541424406_2_alg».proof.Proof.Gen.ReferenceIdeal.Read
import proofs.«155993_j2439541424406_2_alg».proof.Proof.Gen.Pre_finite_inputs
import proofs.«155993_j2439541424406_2_alg».proof.Proof.K.Frame
import proofs.«155993_j2439541424406_2_alg».proof.Proof.KI.Frame
import proofs.«155993_j2439541424406_2_alg».proof.Proof.Spec2
import proofs.«155993_j2439541424406_2_alg».proof.Proof.Val0
import proofs.«155993_j2439541424406_2_alg».proof.Proof.Val1
import proofs.«155993_j2439541424406_2_alg».proof.Proof.Val2
import proofs.«155993_j2439541424406_2_alg».proof.Proof.Compose
import proofs.«155993_j2439541424406_2_alg».proof.Proof.RefSide
import proofs.«155993_j2439541424406_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Hand in
/-- The idealized kernel program's run with its result named: the result buffer ends at what the last boundary
    holds there, the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = B6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (B6_kept m c main_arg0 (by decide) (by decide) (by decide) (by decide) (by decide) (by decide)),
     (h c _ (mem_uc main_arg1 (by decide))).trans (B6_kept m c main_arg1 (by decide) (by decide) (by decide) (by decide) (by decide) (by decide)),
     (h c _ (mem_uc main_arg2 (by decide))).trans (B6_kept m c main_arg2 (by decide) (by decide) (by decide) (by decide) (by decide) (by decide)),
     (h c _ (mem_uc main_arg3 (by decide))).trans (B6_kept m c main_arg3 (by decide) (by decide) (by decide) (by decide) (by decide) (by decide))⟩)
    (run_final m ρ)

/-- From memories agreeing on the arguments, under the precondition, the two idealized programs end with equal
    results: each is Spec.result of the arguments, entry by entry. -/
theorem algebraic : Cert.algebraic_KernelIdeal_ReferenceIdeal := by
  intro m ρ m' ρ' hpre hagree
  refine ⟨fun c => Cert.KernelIdeal.Hand.B6 m c Cert.KernelIdeal.main_v7, kernel_run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.B6 m c Cert.KernelIdeal.main_v7
  rw [Cert.ReferenceIdeal.Read.val_main_v30_eq, (hagree c).1, (hagree c).2.1, (hagree c).2.2.1, (hagree c).2.2.2]
  obtain ⟨f0, f1, f2, f3⟩ := Cert.Finite.real_of_pre _ _ _ _ (hpre c)
  funext i
  obtain ⟨b, s, e, rfl⟩ : ∃ (b : Fin 2) (s : Fin 2048) (e : Fin 1024), i = ix3 b s e := ⟨i 0, i 1, i 2, eq_ix3 i⟩
  exact (Cert.RefSide.ref_eq _ _ _ _ f0 f1 f2 f3 b s e).trans
    (Cert.KernelIdeal.Val.result_eq m c (fun V c r e => Cert.KernelIdeal.Val.arr0_eq V c r e)
      (fun V c b s h d => Cert.KernelIdeal.Val.arr1_eq V c b s h d) (fun V c r e => Cert.KernelIdeal.Val.arr2_eq V c r e) b s e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
